-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part7 {F : FTy → Type} [FloatOps F] (main_arg25 : FVec F S1024 .f32) (main_v118 : IVec S_ 1) (main_v119 : FVec F S1024x1024 .f32) : IVec S_ 1 :=
  let main_cst_46 : FVec F S_ .f32 := constant S_ .f32 0x7F800000#32
  let main_v120 : FVec F S1024x1024 .f32 := broadcastInDim S1024x1024 ![] bcast_S_S1024x1024 main_cst_46
  let main_v121 : IVec S1024x1024 1 := cmpf .olt main_v119 main_v120
  let main_c_47 : IVec S_ 1 := constantI S_ 1 1#1
  let main_v122 : IVec S_ 1 := (fun x v => Host.reduce IntOp.andi x v reducesTo_S1024x1024_S_d0_1 h_S_) main_v121 main_c_47
  let main_v123 : IVec S_ 1 := andi main_v118 main_v122
  let main_v124 : FVec F S1024 .f32 := Host.absf main_arg25
  let main_cst_48 : FVec F S_ .f32 := constant S_ .f32 0x7F800000#32
  let main_v125 : FVec F S1024 .f32 := broadcastInDim S1024 ![] bcast_S_S1024 main_cst_48
  let main_v126 : IVec S1024 1 := cmpf .olt main_v124 main_v125
  let main_c_49 : IVec S_ 1 := constantI S_ 1 1#1
  let main_v127 : IVec S_ 1 := (fun x v => Host.reduce IntOp.andi x v reducesTo_S1024_S_d0 h_S_) main_v126 main_c_49
  let main_v128 : IVec S_ 1 := andi main_v123 main_v127
  main_v128

def fn_part6 {F : FTy → Type} [FloatOps F] (main_arg21 : FVec F S1024x1024 .f32) (main_arg22 : FVec F S1024 .f32) (main_arg23 : FVec F S1024 .f32) (main_arg24 : FVec F S1024x1024 .f32) (main_arg25 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x1024 .f32 := Host.absf main_arg21
  let main_cst_40 : FVec F S_ .f32 := constant S_ .f32 0x7F800000#32
  let main_v105 : FVec F S1024x1024 .f32 := broadcastInDim S1024x1024 ![] bcast_S_S1024x1024 main_cst_40
  let main_v106 : IVec S1024x1024 1 := cmpf .olt main_v104 main_v105
  let main_c_41 : IVec S_ 1 := constantI S_ 1 1#1
  let main_v107 : IVec S_ 1 := (fun x v => Host.reduce IntOp.andi x v reducesTo_S1024x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024 .f32 := Host.absf main_arg23
  let main_cst_44 : FVec F S_ .f32 := constant S_ .f32 0x7F800000#32
  let main_v115 : FVec F S1024 .f32 := broadcastInDim S1024 ![] bcast_S_S1024 main_cst_44
  let main_v116 : IVec S1024 1 := cmpf .olt main_v114 main_v115
  let main_c_45 : IVec S_ 1 := constantI S_ 1 1#1
  let main_v117 : IVec S_ 1 := (fun x v => Host.reduce IntOp.andi x v reducesTo_S1024_S_d0 h_S_) main_v116 main_c_45
  let main_v118 : IVec S_ 1 := andi main_v113 main_v117
  let main_v119 : FVec F S1024x1024 .f32 := Host.absf main_arg24
  fn_part7 (F := F) main_arg25 main_v118 main_v119

def fn_part5 {F : FTy → Type} [FloatOps F] (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S1024x1024 .f32) (main_arg5 : FVec F S1024 .f32) (main_arg6 : FVec F S1024x1024 .f32) (main_arg7 : FVec F S1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024 .f32) (main_arg14 : FVec F S1024x1024 .f32) (main_arg15 : FVec F S1024 .f32) (main_arg16 : FVec F S1024x1024 .f32) (main_arg17 : FVec F S1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024 .f32) (main_arg24 : FVec F S1024x1024 .f32) (main_arg25 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S1x1024 : Shape := ⟨2, ![1, 1024]⟩

abbrev nBuf : Space → Nat
  | .hbm => 50
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024, .f32⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024x1024, .bf16⟩
  | .hbm, ⟨30, _⟩ => ⟨S1024x4096, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024x4096, .bf16⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S4096, .f32⟩
  | .hbm, ⟨45, _⟩ => ⟨S1024x1024, .bf16⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x4096, .bf16⟩
  | .local _ .vmem, ⟨9, _⟩ => ⟨S1024x4096, .bf16⟩
  | .local _ .vmem, ⟨10, _⟩ => ⟨S4096, .f32⟩
  | .local _ .vmem, ⟨11, _⟩ => ⟨S1024x1024, .bf16⟩
  | .local _ .vmem, ⟨12, _⟩ => ⟨S1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S4096_S1024_0 : ∀ a, (![0] : Fin 1 → Nat) a + S1024.size a ≤ S4096.size a
  h_S1024 : 0 < S1024.numel
  shapeCasts_S1024_S1024 : S1024.ShapeCasts S1024
  shapeCasts_S1024_S1x1024 : S1024.ShapeCasts S1x1024
  broadcasts_S1x1024_S256x1024 : S1x1024.Broadcasts S256x1024
  inb_S1024x4096_S1024x1024_0_1024 : ∀ a, (![0, 1024] : Fin 2 → Nat) a + S1024x1024.size a ≤ S1024x4096.size a
  inb_S4096_S1024_1024 : ∀ a, (![1024] : Fin 1 → Nat) a + S1024.size a ≤ S4096.size a
  inb_S1024x4096_S1024x1024_0_2048 : ∀ a, (![0, 2048] : Fin 2 → Nat) a + S1024x1024.size a ≤ S1024x4096.size a
  inb_S4096_S1024_2048 : ∀ a, (![2048] : Fin 1 → Nat) a + S1024.size a ≤ S4096.size a
  inb_S1024x4096_S1024x1024_0_3072 : ∀ a, (![0, 3072] : Fin 2 → Nat) a + S1024x1024.size a ≤ S1024x4096.size a
  inb_S4096_S1024_3072 : ∀ a, (![3072] : Fin 1 → Nat) a + S1024.size a ≤ S4096.size a
  inb_S1024x1024_S1024x1024_0_0 : ∀ a, (![0, 0] : Fin 2 → Nat) a + S1024x1024.size a ≤ S1024x1024.size a
  inb_S1024_S1024_0 : ∀ a, (![0] : Fin 1 → Nat) a + S1024.size a ≤ S1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S16384x1024.size a
  hwx0_10 : ∀ i : grid0.Coords, EltTy.bits .f32 = 32 ∨ (Rect.block (s := S16384x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .f32 = 32 ∨ (Rect.block (s := S16384x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg25) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_1) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20_2) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_3) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S1024, .f32⟩
  | .hbm, ⟨26, _⟩ => ⟨S1024x4096, .f32⟩
  | .hbm, ⟨27, _⟩ => ⟨S1024x4096, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst : Ref sig .tc := ⟨.hbm, 51, rfl⟩
abbrev main_v25 : Ref sig .tc := ⟨.hbm, 52, rfl⟩
abbrev main_v26 : Ref sig .tc := ⟨.hbm, 53, rfl⟩
abbrev main_cst_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_cst_2 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x4096_S16384x4096_1_0_0_1_n_n_wf : DotDims.WF S16384x1024 S1024x4096 S16384x4096 [1] [0] [0] [1] [] []
  dot_S16384x1024_S1024x1024_S16384x1024_1_0_0_1_n_n_wf : DotDims.WF S16384x1024 S1024x1024 S16384x1024 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.CellRun.lean ====
/-
  The cell kernel's run: every weakly fair execution of @main ends, faults nowhere and leaves the
  argument arrays as they were, and each of the four result arrays ends at what the launch's blocks
  wrote back.  The launch has one grid axis of 64 points; point t works on rows 256·t … 256·t + 255 of
  the four batch-major inputs (x, h_prev, c_prev, n_prev) and of the four results (y, h, C, n), and on
  the whole of the two concatenated weight matrices, the concatenated bias, the output projection
  and its bias, which the host lines before the launch build from the arguments and which stay in
  place across the points.  The body reads its nine input blocks, computes the four gates one at a
  time (columns 1024·g … 1024·g + 1023 of the concatenated weights for gate g), the new cell state,
  normaliser and hidden state and the output projection, and stores each result over the whole of
  its output block; so after a point each output block is one pure function of the nine input
  blocks (`outY`, `outH`, `outC`, `outN` below).  Stated for any float instance.
-/
import proofs.«147221_j68642167325024_2_alg».proof.Proof.Gen.Kernel.Launch
import proofs.«147221_j68642167325024_2_alg».proof.Proof.Gen.Kernel.Skeleton
import proofs.«147221_j68642167325024_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The TensorCore buffers of core `c` when the launch is entered: the memory after the twenty host lines
    (the weight casts, the two concatenations along the columns, the bias sums and their concatenation). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 19: the launch finds it as given. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 20: the launch finds it as given. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 21: the launch finds it as given. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 22: the launch finds it as given. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 23: the launch finds it as given. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 24: the launch finds it as given. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 25: the launch finds it as given. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: a batch-major window is
    fetched at every point, a weight or bias window at the first point only and its block never moves. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments are kept -/

/-- From a run of the launch to the library's post: every argument array ends as it began (a staged one is
    read back through its window, another is outside the launch's reach; no host line writes either). -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 8).trans (((dats 0 c).arrAt_in 8 rfl _).trans ((hA c 8).trans (V_main_arg25 m c)))⟩

/-! ## The body's accesses -/

/-- A whole [256, 1024] block. -/
abbrev rA : Rect S256x1024 := Rect.unit (s := S256x1024) ![0, 0] S256x1024.size inb_S256x1024_S256x1024_0_0
/-- Columns 1024·g … 1024·g + 1023 of a concatenated weight matrix, g = 0, 1, 2, 3. -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Entries 1024·g … 1024·g + 1023 of the concatenated bias. -/
abbrev rB0 : Rect S4096 := Rect.unit (s := S4096) ![0] S1024.size inb_S4096_S1024_0
abbrev rB1 : Rect S4096 := Rect.unit (s := S4096) ![1024] S1024.size inb_S4096_S1024_1024
abbrev rB2 : Rect S4096 := Rect.unit (s := S4096) ![2048] S1024.size inb_S4096_S1024_2048
abbrev rB3 : Rect S4096 := Rect.unit (s := S4096) ![3072] S1024.size inb_S4096_S1024_3072
/-- The whole output projection and the whole of its bias. -/
abbrev rP : Rect S1024x1024 := Rect.unit (s := S1024x1024) ![0, 0] S1024x1024.size inb_S1024x1024_S1024x1024_0_0
abbrev rQ : Rect S1024 := Rect.unit (s := S1024) ![0] S1024.size inb_S1024_S1024_0

/-! ## What the body computes from its nine input blocks -/

/-- tanh of gate 0's pre-activation. -/
def gateZ (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay3 (View.ld x0 rA) (View.ld x1 rA) (View.ld x4 rW0) (View.ld x5 rW0) (View.ld x6 rB0)
/-- exp of gate 1's pre-activation. -/
def gateI (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay4 (View.ld x0 rA) (View.ld x1 rA) (View.ld x4 rW1) (View.ld x5 rW1) (View.ld x6 rB1)
/-- The new cell state C = f · c_prev + i · z. -/
def cellC (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay9 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2)) (View.ld x2 rA)
/-- The new normaliser n = f · n_prev + i. -/
def cellN (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay10 (k0_pay1 (View.ld x0 rA)) (k0_pay2 (View.ld x1 rA)) (gateI x0 x1 x2 x3 x4 x5 x6 x7 x8)
    (k0_pay5 (View.ld x4 rW2)) (k0_pay6 (View.ld x5 rW2)) (k0_pay7 (View.ld x6 rB2)) (View.ld x3 rA)
/-- The new hidden state h = o · tanh (C / (n + ε)). -/
def cellH (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay11 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2))
    (View.ld x4 rW3) (View.ld x5 rW3) (View.ld x6 rB3) (View.ld x2 rA) (View.ld x3 rA)
/-- The output y = h · Wy + by. -/
def cellY (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay12 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2))
    (View.ld x4 rW3) (View.ld x5 rW3) (View.ld x6 rB3) (View.ld x2 rA) (View.ld x3 rA) (View.ld x7 rP) (View.ld x8 rQ)

/-- Each output block after the body: its one store, over the whole block. -/
def outY (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellY x0 x1 x2 x3 x4 x5 x6 x7 x8⟩]
def outH (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellH x0 x1 x2 x3 x4 x5 x6 x7 x8⟩]
def outC (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellC x0 x1 x2 x3 x4 x5 x6 x7 x8⟩]
def outN (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellN x0 x1 x2 x3 x4 x5 x6 x7 x8⟩]

/-- The one store covers the block. -/
theorem cover_block (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The body on whole staging buffers, the inputs' holding `x0 … x8` and the outputs' anything, runs to the
    continuation with the inputs' as they were and the outputs' at `outY`, `outH`, `outC`, `outN` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S4096 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outY x0 x1 x2 x3 x4 x5 x6 x7 x8) ∗ owns (c : Thread nD τ) arg11 fullShare (outH x0 x1 x2 x3 x4 x5 x6 x7 x8) ∗ owns (c : Thread nD τ) arg12 fullShare (outC x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__sxlstm_kernel i arg1 harg1 arg2 harg2 arg3 harg3 arg4 harg4 arg5 harg5 arg6 harg6 arg7 harg7 arg8 harg8 arg9 harg9 arg10 harg10 arg11 harg11 arg12 harg12 arg13 harg13) K := by
  simp only [cc0__sxlstm_kernel_eq_skeleton]; unfold cc0__sxlstm_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_block _)
  isplitl [H10]
  · iexists _; isplitr
    swap; · iexact H10
    ipureintro
    try dsimp only
    exact View.read_writes_eq_canon _ _ _ (cover_block _)
  isplitl [H11]
  · iexists _; isplitr
    swap; · iexact H11
    ipureintro
    try dsimp only
    exact View.read_writes_eq_canon _ _ _ (cover_block _)
  iexists _; isplitr
  swap; · iexact H12
  ipureintro
  try dsimp only
  exact View.read_writes_eq_canon _ _ _ (cover_block _)

/-! ## The launch's proof data -/

/-- On core `c`: the arrays as the launch finds them; after the body at point `t` each input's buffer at its block
    and each output's at its function of the nine input blocks; the body uses nothing else; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (iblk m c 0 t) (iblk m c 1 t) (iblk m c 2 t) (iblk m c 3 t) (iblk m c 4 t) (iblk m c 5 t) (iblk m c 6 t) (iblk m c 7 t) (iblk m c 8 t)
    | ⟨10, _⟩ => outH (iblk m c 0 t) (iblk m c 1 t) (iblk m c 2 t) (iblk m c 3 t) (iblk m c 4 t) (iblk m c 5 t) (iblk m c 6 t) (iblk m c 7 t) (iblk m c 8 t)
    | ⟨11, _⟩ => outC (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = iblk m c 8 t := by dsimp only [dats]
theorem after_w9 (c : Dev nD) (t : Fin cfg0.N) : (dats m 0 c).after 9 t = outY (iblk m c 0 t) (iblk m c 1 t) (iblk m c 2 t) (iblk m c 3 t) (iblk m c 4 t) (iblk m c 5 t) (iblk m c 6 t) (iblk m c 7 t) (iblk m c 8 t) := by dsimp only [dats]
theorem after_w10 (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) := by dsimp only [dats]
theorem after_w11 (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) := by dsimp only [dats]
theorem after_w12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before_w0 (c : Dev nD) (t : Fin cfg0.N) (d) : (dats m 0 c).before 0 t d = iblk m c 0 t :=
  before_in0 m (dats m 0 c) (A_eq m c 0) (after_w0 m c) t d
theorem before_w1 (c : Dev nD) (t : Fin cfg0.N) (d) : (dats m 0 c).before 1 t d = iblk m c 1 t :=
  before_in1 m (dats m 0 c) (A_eq m c 1) (after_w1 m c) t d
theorem before_w2 (c : Dev nD) (t : Fin cfg0.N) (d) : (dats m 0 c).before 2 t d = iblk m c 2 t :=
  before_in2 m (dats m 0 c) (A_eq m c 2) (after_w2 m c) t d
theorem before_w3 (c : Dev nD) (t : Fin cfg0.N) (d) : (dats m 0 c).before 3 t d = iblk m c 3 t :=
  before_in3 m (dats m 0 c) (A_eq m c 3) (after_w3 m c) t d
theorem before_w4 (c : Dev nD) (t : Fin cfg0.N) (d) : (dats m 0 c).before 4 t d = iblk m c 4 t :=
  before_in4 m (dats m 0 c) (A_eq m c 4) (after_w4 m c) t d
theorem before_w5 (c : Dev nD) (t : Fin cfg0.N) (d) : (dats m 0 c).before 5 t d = iblk m c 5 t :=
  before_in5 m (dats m 0 c) (A_eq m c 5) (after_w5 m c) t d
theorem before_w6 (c : Dev nD) (t : Fin cfg0.N) (d) : (dats m 0 c).before 6 t d = iblk m c 6 t :=
  before_in6 m (dats m 0 c) (A_eq m c 6) (after_w6 m c) t d
theorem before_w7 (c : Dev nD) (t : Fin cfg0.N) (d) : (dats m 0 c).before 7 t d = iblk m c 7 t :=
  before_in7 m (dats m 0 c) (A_eq m c 7) (after_w7 m c) t d
theorem before_w8 (c : Dev nD) (t : Fin cfg0.N) (d) : (dats m 0 c).before 8 t d = iblk m c 8 t :=
  before_in8 m (dats m 0 c) (A_eq m c 8) (after_w8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7, before_w8]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10, after_w11, after_w12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and in every final state each array of the launch is what
    the library computes from the proof data and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the twenty-six argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => kept_of m (dats m) (A_eq m) r h c) (run_main m ρ)

end Cert.Kernel.Cell

end
-- ==== Proof.CellRunIdeal.lean ====
/-
  The cell kernel's run: every weakly fair execution of @main ends, faults nowhere and leaves the
  argument arrays as they were, and each of the four result arrays ends at what the launch's blocks
  wrote back.  The launch has one grid axis of 64 points; point t works on rows 256·t … 256·t + 255 of
  the four batch-major inputs (x, h_prev, c_prev, n_prev) and of the four results (y, h, C, n), and on
  the whole of the two concatenated weight matrices, the concatenated bias, the output projection
  and its bias, which the host lines before the launch build from the arguments and which stay in
  place across the points.  The body reads its nine input blocks, computes the four gates one at a
  time (columns 1024·g … 1024·g + 1023 of the concatenated weights for gate g), the new cell state,
  normaliser and hidden state and the output projection, and stores each result over the whole of
  its output block; so after a point each output block is one pure function of the nine input
  blocks (`outY`, `outH`, `outC`, `outN` below).  Stated for any float instance.
-/
import proofs.«147221_j68642167325024_2_alg».proof.Proof.Gen.KernelIdeal.Launch
import proofs.«147221_j68642167325024_2_alg».proof.Proof.Gen.KernelIdeal.Skeleton
import proofs.«147221_j68642167325024_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- The TensorCore buffers of core `c` when the launch is entered: the memory after the twenty host lines
    (the weight casts, the two concatenations along the columns, the bias sums and their concatenation). -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- @main is the host lines, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 10: the launch finds it as given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 11: the launch finds it as given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 12: the launch finds it as given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 13: the launch finds it as given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 14: the launch finds it as given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 15: the launch finds it as given. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 16: the launch finds it as given. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 17: the launch finds it as given. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 18: the launch finds it as given. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 19: the launch finds it as given. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 20: the launch finds it as given. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 21: the launch finds it as given. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 22: the launch finds it as given. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 23: the launch finds it as given. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 24: the launch finds it as given. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))
/-- No host operation before the launch writes argument 25: the launch finds it as given. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.flatten_cons, List.flatten_nil, List.append_nil, List.cons_append,
      List.nil_append, List.Forall, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: a batch-major window is
    fetched at every point, a weight or bias window at the first point only and its block never moves. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The arguments are kept -/

/-- From a run of the launch to the library's post: every argument array ends as it began (a staged one is
    read back through its window, another is outside the launch's reach; no host line writes either). -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).1 8).trans (((dats 0 c).arrAt_in 8 rfl _).trans ((hA c 8).trans (V_main_arg25 m c)))⟩

/-! ## The body's accesses -/

/-- A whole [256, 1024] block. -/
abbrev rA : Rect S256x1024 := Rect.unit (s := S256x1024) ![0, 0] S256x1024.size inb_S256x1024_S256x1024_0_0
/-- Columns 1024·g … 1024·g + 1023 of a concatenated weight matrix, g = 0, 1, 2, 3. -/
abbrev rW0 : Rect S1024x4096 := Rect.unit (s := S1024x4096) ![0, 0] S1024x1024.size inb_S1024x4096_S1024x1024_0_0
abbrev rW1 : Rect S1024x4096 := Rect.unit (s := S1024x4096) ![0, 1024] S1024x1024.size inb_S1024x4096_S1024x1024_0_1024
abbrev rW2 : Rect S1024x4096 := Rect.unit (s := S1024x4096) ![0, 2048] S1024x1024.size inb_S1024x4096_S1024x1024_0_2048
abbrev rW3 : Rect S1024x4096 := Rect.unit (s := S1024x4096) ![0, 3072] S1024x1024.size inb_S1024x4096_S1024x1024_0_3072
/-- Entries 1024·g … 1024·g + 1023 of the concatenated bias. -/
abbrev rB0 : Rect S4096 := Rect.unit (s := S4096) ![0] S1024.size inb_S4096_S1024_0
abbrev rB1 : Rect S4096 := Rect.unit (s := S4096) ![1024] S1024.size inb_S4096_S1024_1024
abbrev rB2 : Rect S4096 := Rect.unit (s := S4096) ![2048] S1024.size inb_S4096_S1024_2048
abbrev rB3 : Rect S4096 := Rect.unit (s := S4096) ![3072] S1024.size inb_S4096_S1024_3072
/-- The whole output projection and the whole of its bias. -/
abbrev rP : Rect S1024x1024 := Rect.unit (s := S1024x1024) ![0, 0] S1024x1024.size inb_S1024x1024_S1024x1024_0_0
abbrev rQ : Rect S1024 := Rect.unit (s := S1024) ![0] S1024.size inb_S1024_S1024_0

/-! ## What the body computes from its nine input blocks -/

/-- tanh of gate 0's pre-activation. -/
def gateZ (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay3 (View.ld x0 rA) (View.ld x1 rA) (View.ld x4 rW0) (View.ld x5 rW0) (View.ld x6 rB0)
/-- exp of gate 1's pre-activation. -/
def gateI (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay4 (View.ld x0 rA) (View.ld x1 rA) (View.ld x4 rW1) (View.ld x5 rW1) (View.ld x6 rB1)
/-- The new cell state C = f · c_prev + i · z. -/
def cellC (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay9 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2)) (View.ld x2 rA)
/-- The new normaliser n = f · n_prev + i. -/
def cellN (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay10 (k0_pay1 (View.ld x0 rA)) (k0_pay2 (View.ld x1 rA)) (gateI x0 x1 x2 x3 x4 x5 x6 x7 x8)
    (k0_pay5 (View.ld x4 rW2)) (k0_pay6 (View.ld x5 rW2)) (k0_pay7 (View.ld x6 rB2)) (View.ld x3 rA)
/-- The new hidden state h = o · tanh (C / (n + ε)). -/
def cellH (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay11 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2))
    (View.ld x4 rW3) (View.ld x5 rW3) (View.ld x6 rB3) (View.ld x2 rA) (View.ld x3 rA)
/-- The output y = h · Wy + by. -/
def cellY (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : FVec F S256x1024 .f32 :=
  k0_pay12 (k0_pay1 (View.ld x0 rA)) (k0_pay2 (View.ld x1 rA)) (gateZ x0 x1 x2 x3 x4 x5 x6 x7 x8) (gateI x0 x1 x2 x3 x4 x5 x6 x7 x8)
    (k0_pay5 (View.ld x4 rW2)) (k0_pay6 (View.ld x5 rW2)) (k0_pay7 (View.ld x6 rB2))
    (View.ld x4 rW3) (View.ld x5 rW3) (View.ld x6 rB3) (View.ld x2 rA) (View.ld x3 rA) (View.ld x7 rP) (View.ld x8 rQ)

/-- Each output block after the body: its one store, over the whole block. -/
def outY (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellY x0 x1 x2 x3 x4 x5 x6 x7 x8⟩]
def outH (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellH x0 x1 x2 x3 x4 x5 x6 x7 x8⟩]
def outC (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellC x0 x1 x2 x3 x4 x5 x6 x7 x8⟩]
def outN (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) : Vec F S256x1024 .f32 := View.canon [⟨rA, cellN x0 x1 x2 x3 x4 x5 x6 x7 x8⟩]

/-- The one store covers the block. -/
theorem cover_block (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- The body on whole staging buffers, the inputs' holding `x0 … x8` and the outputs' anything, runs to the
    continuation with the inputs' as they were and the outputs' at `outY`, `outH`, `outC`, `outN` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x4096 .bf16) (harg5 : arg5.IsWhole) (arg6 : Memref sig .tc .vmem S1024x4096 .bf16) (harg6 : arg6.IsWhole) (arg7 : Memref sig .tc .vmem S4096 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)
    (x0 : Vec F S256x1024 .f32) (x1 : Vec F S256x1024 .f32) (x2 : Vec F S256x1024 .f32) (x3 : Vec F S256x1024 .f32) (x4 : Vec F S1024x4096 .bf16) (x5 : Vec F S1024x4096 .bf16) (x6 : Vec F S4096 .f32) (x7 : Vec F S1024x1024 .bf16) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outY x0 x1 x2 x3 x4 x5 x6 x7 x8) ∗ owns (c : Thread nD τ) arg11 fullShare (outH x0 x1 x2 x3 x4 x5 x6 x7 x8) ∗ owns (c : Thread nD τ) arg12 fullShare (outC x0 x1 x2 x3 x4 x5 x6 x7 x8) ∗ owns (c : Thread nD τ) arg13 fullShare (outN x0 x1 x2 x3 x4 x5 x6 x7 x8)) -∗ K ⟨⟩))
      ⊢ wp frame (wpE (defs₀ (F := F)) Variants.none c none) E (cc0__sxlstm_kernel i arg1 harg1 arg2 harg2 arg3 harg3 arg4 harg4 arg5 harg5 arg6 harg6 arg7 harg7 arg8 harg8 arg9 harg9 arg10 harg10 arg11 harg11 arg12 harg12 arg13 harg13) K := by
  simp only [cc0__sxlstm_kernel_eq_skeleton]; unfold cc0__sxlstm_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover_block _)
  isplitl [H10]
  · iexists _; isplitr
    swap; · iexact H10
    ipureintro
    try dsimp only
    exact View.read_writes_eq_canon _ _ _ (cover_block _)
  isplitl [H11]
  · iexists _; isplitr
    swap; · iexact H11
    ipureintro
    try dsimp only
    exact View.read_writes_eq_canon _ _ _ (cover_block _)
  iexists _; isplitr
  swap; · iexact H12
  ipureintro
  try dsimp only
  exact View.read_writes_eq_canon _ _ _ (cover_block _)

/-! ## The launch's proof data -/

/-- On core `c`: the arrays as the launch finds them; after the body at point `t` each input's buffer at its block
    and each output's at its function of the nine input blocks; the body uses nothing else; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outY (iblk m c 0 t) (iblk m c 1 t) (iblk m c 2 t) (iblk m c 3 t) (iblk m c 4 t) (iblk m c 5 t) (iblk m c 6 t) (iblk m c 7 t) (iblk m c 8 t)
    | ⟨10, _⟩ => outH (iblk m c 0 t) (iblk m c 1 t) (iblk m c 2 t) (iblk m c 3 t) (iblk m c 4 t) (iblk m c 5 t) (iblk m c 6 t) (iblk m c 7 t) (iblk m c 8 t)
    | ⟨11, _⟩ => outC (iblk m c 0 t) (iblk m c 1 t) (iblk m c 2 t) (iblk m c 3 t) (iblk m c 4 t) (iblk m c 5 t) (iblk m c 6 t) (iblk m c 7 t) (iblk m c 8 t)
    | ⟨12, _⟩ => outN (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = iblk m c 8 t := by dsimp only [dats]
theorem after_w9 (c : Dev nD) (t : Fin cfg0.N) : (dats m 0 c).after 9 t = outY (iblk m c 0 t) (iblk m c 1 t) (iblk m c 2 t) (iblk m c 3 t) (iblk m c 4 t) (iblk m c 5 t) (iblk m c 6 t) (iblk m c 7 t) (iblk m c 8 t) := by dsimp only [dats]
theorem after_w10 (c : Dev nD) (t : Fin cfg0.N) : (dats m 0 c).after 10 t = outH (iblk m c 0 t) (iblk m c 1 t) (iblk m c 2 t) (iblk m c 3 t) (iblk m c 4 t) (iblk m c 5 t) (iblk m c 6 t) (iblk m c 7 t) (iblk m c 8 t) := by dsimp only [dats]
theorem after_w11 (c : Dev nD) (t : Fin cfg0.N) : (dats m 0 c).after 11 t = outC (iblk m c 0 t) (iblk m c 1 t) (iblk m c 2 t) (iblk m c 3 t) (iblk m c 4 t) (iblk m c 5 t) (iblk m c 6 t) (iblk m c 7 t) (iblk m c 8 t) := by dsimp only [dats]
theorem after_w12 (c : Dev nD) (t : Fin cfg0.N) : (dats m 0 c).after 12 t = outN (iblk m c 0 t) (iblk m c 1 t) (iblk m c 2 t) (iblk m c 3 t) (iblk m c 4 t) (iblk m c 5 t) (iblk m c 6 t) (iblk m c 7 t) (iblk m c 8 t) := by dsimp only [dats]

theorem before_w0 (c : Dev nD) (t : Fin cfg0.N) (d) : (dats m 0 c).before 0 t d = iblk m c 0 t :=
  before_in0 m (dats m 0 c) (A_eq m c 0) (after_w0 m c) t d
theorem before_w1 (c : Dev nD) (t : Fin cfg0.N) (d) : (dats m 0 c).before 1 t d = iblk m c 1 t :=
  before_in1 m (dats m 0 c) (A_eq m c 1) (after_w1 m c) t d
theorem before_w2 (c : Dev nD) (t : Fin cfg0.N) (d) : (dats m 0 c).before 2 t d = iblk m c 2 t :=
  before_in2 m (dats m 0 c) (A_eq m c 2) (after_w2 m c) t d
theorem before_w3 (c : Dev nD) (t : Fin cfg0.N) (d) : (dats m 0 c).before 3 t d = iblk m c 3 t :=
  before_in3 m (dats m 0 c) (A_eq m c 3) (after_w3 m c) t d
theorem before_w4 (c : Dev nD) (t : Fin cfg0.N) (d) : (dats m 0 c).before 4 t d = iblk m c 4 t :=
  before_in4 m (dats m 0 c) (A_eq m c 4) (after_w4 m c) t d
theorem before_w5 (c : Dev nD) (t : Fin cfg0.N) (d) : (dats m 0 c).before 5 t d = iblk m c 5 t :=
  before_in5 m (dats m 0 c) (A_eq m c 5) (after_w5 m c) t d
theorem before_w6 (c : Dev nD) (t : Fin cfg0.N) (d) : (dats m 0 c).before 6 t d = iblk m c 6 t :=
  before_in6 m (dats m 0 c) (A_eq m c 6) (after_w6 m c) t d
theorem before_w7 (c : Dev nD) (t : Fin cfg0.N) (d) : (dats m 0 c).before 7 t d = iblk m c 7 t :=
  before_in7 m (dats m 0 c) (A_eq m c 7) (after_w7 m c) t d
theorem before_w8 (c : Dev nD) (t : Fin cfg0.N) (d) : (dats m 0 c).before 8 t d = iblk m c 8 t :=
  before_in8 m (dats m 0 c) (A_eq m c 8) (after_w8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 1000000 in
/-- The body at any point: the inputs' buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7, before_w8]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10, after_w11, after_w12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates, and in every final state each array of the launch is what
    the library computes from the proof data and every other unscoped buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and the twenty-six argument arrays are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => kept_of m (dats m) (A_eq m) r h c) (run_main m ρ)

end Cert.KernelIdeal.Cell

end
-- ==== Proof.CellSpec.lean ====
/-
  One step of the sLSTM cell, row by row, on the extended reals.
  For one batch row with input row x, previous hidden row h, previous cell row c and previous normaliser row n
  (each of 1024 entries), with the concatenated input weights W and recurrent weights R (1024 × 4096: four gates side
  by side, gate g in columns 1024·g … 1024·g + 1023), the concatenated bias b (4096), the output projection P
  (1024 × 1024) and its bias d (1024):
    pre_g(q) = (Σ_k x_k · W(k, 1024·g + q) + Σ_k h_k · R(k, 1024·g + q)) + b(1024·g + q),
    z = tanh pre_0,  i = exp pre_1,  f = σ(pre_2),  o = σ(pre_3),
    C = f · c + i · z,   N = f · n + i,   H = o · tanh (C / (N + ε)),   Y(q) = Σ_k H_k · P(k, q) + d(q).
  Every operation is the exact one of the extended reals; ε is the binary float 0x33D6BF95.
-/
import Idealize.ShloMosaic.PureOps.Ideal
import Idealize.ShloMosaic.Lib.ValueIdx

noncomputable section

namespace Cert.CellSpec

open Idealize.ShloMosaic Idealize.ShloMosaic.ValueIdx

/-- A matrix and a vector of extended reals, over the index types of the literal shapes. -/
abbrev Mat (a b : ℕ) := (⟨2, ![a, b]⟩ : Shape).Idx → EReal
abbrev Vect (a : ℕ) := (⟨1, ![a]⟩ : Shape).Idx → EReal

/-- Column `o + q` of a concatenated array, for a gate starting at column `o`. -/
def colAt (o : ℕ) (ho : o + 1024 ≤ 4096) (q : Fin 1024) : Fin 4096 := ⟨o + q.val, by omega⟩

/-- The ε of the normaliser. -/
def eps : EReal := Ideal.ofBits .f32 0x33D6BF95#32

variable (x h c n : Fin 1024 → EReal) (W R : Mat 1024 4096) (b : Vect 4096) (P : Mat 1024 1024) (d : Vect 1024)

/-- The pre-activation of the gate whose columns start at `o`. -/
def pre (o : ℕ) (ho : o + 1024 ≤ 4096) (q : Fin 1024) : EReal :=
  (∑ k : Fin 1024, x k * W (ix2 k (colAt o ho q)) + ∑ k : Fin 1024, h k * R (ix2 k (colAt o ho q))) + b (ix1 (colAt o ho q))

def gz (q : Fin 1024) : EReal := Ideal.tanh (pre x h W R b 0 (by omega) q)
def gi (q : Fin 1024) : EReal := Ideal.exp (pre x h W R b 1024 (by omega) q)
def gf (q : Fin 1024) : EReal := Ideal.logistic (pre x h W R b 2048 (by omega) q)
def go (q : Fin 1024) : EReal := Ideal.logistic (pre x h W R b 3072 (by omega) q)

/-- The new cell state. -/
def newC (q : Fin 1024) : EReal := gf x h W R b q * c q + gi x h W R b q * gz x h W R b q
/-- The new normaliser. -/
def newN (q : Fin 1024) : EReal := gf x h W R b q * n q + gi x h W R b q
/-- The new hidden state. -/
def newH (q : Fin 1024) : EReal :=
  go x h W R b q * Ideal.tanh (Ideal.div (newC x h c W R b q) (newN x h n W R b q + eps))
/-- The output. -/
def outY (q : Fin 1024) : EReal := (∑ k : Fin 1024, newH x h c n W R b k * P (ix2 k q)) + d (ix1 q)

/-! ## The four result arrays: the cell step at every batch row -/

section Arrays
variable (X H C N : Mat 16384 1024) (W R : Mat 1024 4096) (b : Vect 4096) (P : Mat 1024 1024) (d : Vect 1024)

/-- Row `r` of a batch-major array. -/
def rowOf (A : Mat 16384 1024) (r : Fin 16384) : Fin 1024 → EReal := fun k => A (ix2 r k)

def arrC : Mat 16384 1024 := fun i => newC (rowOf X (i 0)) (rowOf H (i 0)) (rowOf C (i 0)) W R b (i 1)
def arrN : Mat 16384 1024 := fun i => newN (rowOf X (i 0)) (rowOf H (i 0)) (rowOf N (i 0)) W R b (i 1)
def arrH : Mat 16384 1024 := fun i => newH (rowOf X (i 0)) (rowOf H (i 0)) (rowOf C (i 0)) (rowOf N (i 0)) W R b (i 1)
def arrY : Mat 16384 1024 := fun i => outY (rowOf X (i 0)) (rowOf H (i 0)) (rowOf C (i 0)) (rowOf N (i 0)) W R b P d (i 1)

/-- Row `p` of the block of 256 rows that grid point `t` works on is row `256·t + p` of the array. -/
def grow (t : Fin 64) (p : Fin 256) : Fin 16384 := ⟨256 * t.val + p.val, by omega⟩
end Arrays

/-! The result arrays depend on the argument arrays only. -/
section Congr
variable {X X' H H' C C' N N' : Mat 16384 1024} {W W' R R' : Mat 1024 4096} {b b' : Vect 4096} {P P' : Mat 1024 1024} {d d' : Vect 1024}

theorem arrY_congr (hX : X = X') (hH : H = H') (hC : C = C') (hN : N = N') (hW : W = W') (hR : R = R') (hb : b = b')
    (hP : P = P') (hd : d = d') : arrY X H C N W R b P d = arrY X' H' C' N' W' R' b' P' d' := by
  subst hX hH hC hN hW hR hb hP hd; rfl
theorem arrH_congr (hX : X = X') (hH : H = H') (hC : C = C') (hN : N = N') (hW : W = W') (hR : R = R') (hb : b = b') :
    arrH X H C N W R b = arrH X' H' C' N' W' R' b' := by
  subst hX hH hC hN hW hR hb; rfl
theorem arrC_congr (hX : X = X') (hH : H = H') (hC : C = C') (hW : W = W') (hR : R = R') (hb : b = b') :
    arrC X H C W R b = arrC X' H' C' W' R' b' := by
  subst hX hH hC hW hR hb; rfl
theorem arrN_congr (hX : X = X') (hH : H = H') (hN : N = N') (hW : W = W') (hR : R = R') (hb : b = b') :
    arrN X H N W R b = arrN X' H' N' W' R' b' := by
  subst hX hH hN hW hR hb; rfl
end Congr

end Cert.CellSpec

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.CellBlock.lean ====
/-
  The kernel's block, read entry by entry at the extended reals.  With the nine input blocks of a point —
  256 rows of x, h_prev, c_prev, n_prev, the whole concatenated weights, recurrent weights and bias, the
  whole output projection and its bias — entry (p, q) of each of the four output blocks is the cell step
  of `CellSpec` at row p of the four batch-major blocks.  A matrix product into the zero accumulator is the
  sum over the contracted axis; the casts to sixteen bits and back are the identity on the extended reals;
  the load of columns 1024·g … 1024·g + 1023 reads column 1024·g + q at q; a bias row broadcast down the
  256 rows reads its entry q at (p, q).
-/
import proofs.«147221_j68642167325024_2_alg».proof.Proof.CellRunIdeal
import proofs.«147221_j68642167325024_2_alg».proof.Proof.CellSpec
import proofs.«147221_j68642167325024_2_alg».proof.Proof.LibDot
import Idealize.ShloMosaic.Lib.ValueLayout
import Idealize.ShloMosaic.Lib.Pipeline.Value

set_option maxRecDepth 16384

noncomputable section

namespace Cert.KernelIdeal.CellBlock

open Cert.KernelIdeal Cert.KernelIdeal.Gen Cert.KernelIdeal.Cell Cert.CellSpec
open Idealize.ShloMosaic Idealize.ShloMosaic.ValueIdx

/-! ## Loads -/

theorem hz2 : (![0, 0] : Fin 2 → Nat) = fun _ => 0 := funext fun a => by fin_cases a <;> rfl
theorem hz1 : (![0] : Fin 1 → Nat) = fun _ => 0 := funext fun a => by fin_cases a; rfl

/-- A load of the whole of a block reads the block. -/
theorem ldA (x : Vec Ideal S256x1024 .f32) : View.ld x rA = x := View.ld_unit_zero (S := S256x1024) hz2 _ x
theorem ldP (x : Vec Ideal S1024x1024 .bf16) : View.ld x rP = x := View.ld_unit_zero (S := S1024x1024) hz2 _ x
theorem ldQ (x : Vec Ideal S1024 .f32) : View.ld x rQ = x := View.ld_unit_zero (S := S1024) hz1 _ x

/-- Columns `o … o + 1023` of a concatenated matrix, and entries `o … o + 1023` of a concatenated vector. -/
def colsOf (x : Vec Ideal S1024x4096 .bf16) (o : ℕ) (ho : o + 1024 ≤ 4096) : Vec Ideal S1024x1024 .bf16 :=
  fun i => x (ix2 (i 0) (colAt o ho (i 1)))
def entriesOf (x : Vec Ideal S4096 .f32) (o : ℕ) (ho : o + 1024 ≤ 4096) : Vec Ideal S1024 .f32 :=
  fun i => x (ix1 (colAt o ho (i 0)))

/-- A load of 1024 columns starting at column `o` reads column `o + q` at `q`. -/
theorem ldW (x : Vec Ideal S1024x4096 .bf16) (o : ℕ) (ho : o + 1024 ≤ 4096)
    (inb : ∀ a, (![0, o] : Fin 2 → ℕ) a + S1024x1024.size a ≤ S1024x4096.size a) :
    View.ld x (Rect.unit (s := S1024x4096) ![0, o] S1024x1024.size inb) = colsOf x o ho := by
  funext y
  show x ((Rect.unit (s := S1024x4096) ![0, o] S1024x1024.size inb).idx y) = x (ix2 (y 0) (colAt o ho (y 1)))
  refine congrArg x (funext fun a => Fin.ext ?_)
  match a with
  | ⟨0, _⟩ => show 0 + 1 * (y 0).val = (y 0).val; omega
  | ⟨1, _⟩ => show o + 1 * (y 1).val = o + (y 1).val; omega
theorem ldB (x : Vec Ideal S4096 .f32) (o : ℕ) (ho : o + 1024 ≤ 4096)
    (inb : ∀ a, (![o] : Fin 1 → ℕ) a + S1024.size a ≤ S4096.size a) :
    View.ld x (Rect.unit (s := S4096) ![o] S1024.size inb) = entriesOf x o ho := by
  funext y
  show x ((Rect.unit (s := S4096) ![o] S1024.size inb).idx y) = x (ix1 (colAt o ho (y 0)))
  refine congrArg x (funext fun a => Fin.ext ?_)
  match a with
  | ⟨0, _⟩ => show o + 1 * (y 0).val = o + (y 0).val; omega

/-! ## One gate's pre-activation -/

/-- Two products into the zero accumulator, added, plus a bias row broadcast down the rows, at entry (p, q). -/
theorem gate_pre (a b : FVec Ideal S256x1024 .bf16) (w r : FVec Ideal S1024x1024 .bf16) (v : FVec Ideal S1024 .f32)
    (p : Fin 256) (q : Fin 1024) :
    addf (addf (matmul dot_S256x1024_S1024x1024_S256x1024_1_0_0_1_n_n none a w (constant S256x1024 .f32 0x00000000#32))
        (matmul dot_S256x1024_S1024x1024_S256x1024_1_0_0_1_n_n none b r (constant S256x1024 .f32 0x00000000#32)))
      (broadcastTo S256x1024 (shapeCast S1x1024 v shapeCasts_S1024_S1x1024) broadcasts_S1x1024_S256x1024) (ix2 p q)
    = (∑ k : Fin 1024, a (ix2 p k) * w (ix2 k q) + ∑ k : Fin 1024, b (ix2 p k) * r (ix2 k q)) + v (ix1 q) := by
  show (matmul dot_S256x1024_S1024x1024_S256x1024_1_0_0_1_n_n none a w (constant S256x1024 .f32 0x00000000#32) (ix2 p q)
      + matmul dot_S256x1024_S1024x1024_S256x1024_1_0_0_1_n_n none b r (constant S256x1024 .f32 0x00000000#32) (ix2 p q))
      + broadcastTo S256x1024 (shapeCast S1x1024 v shapeCasts_S1024_S1x1024) broadcasts_S1x1024_S256x1024 (ix2 p q) = _
  rw [LibDot.matmul_zero_plain _ rfl rfl rfl rfl rfl rfl, LibDot.matmul_zero_plain _ rfl rfl rfl rfl rfl rfl,
    broadcastTo_1b_ab_apply, shapeCast_a_1a_apply]

/-- One product into the zero accumulator plus a bias row, at entry (p, q). -/
theorem proj_at (a : FVec Ideal S256x1024 .bf16) (w : FVec Ideal S1024x1024 .bf16) (v : FVec Ideal S1024 .f32)
    (p : Fin 256) (q : Fin 1024) :
    addf (matmul dot_S256x1024_S1024x1024_S256x1024_1_0_0_1_n_n none a w (constant S256x1024 .f32 0x00000000#32))
      (broadcastTo S256x1024 (shapeCast S1x1024 v shapeCasts_S1024_S1x1024) broadcasts_S1x1024_S256x1024) (ix2 p q)
    = (∑ k : Fin 1024, a (ix2 p k) * w (ix2 k q)) + v (ix1 q) := by
  show matmul dot_S256x1024_S1024x1024_S256x1024_1_0_0_1_n_n none a w (constant S256x1024 .f32 0x00000000#32) (ix2 p q)
      + broadcastTo S256x1024 (shapeCast S1x1024 v shapeCasts_S1024_S1x1024) broadcasts_S1x1024_S256x1024 (ix2 p q) = _
  rw [LibDot.matmul_zero_plain _ rfl rfl rfl rfl rfl rfl, broadcastTo_1b_ab_apply, shapeCast_a_1a_apply]

/-! ## The payloads at an entry -/

section Payloads
variable (v0 v2 v56 v57 : Vec Ideal S256x1024 .f32) (v4 v6 v43 v45 v69 : Vec Ideal S1024x1024 .bf16) (v8 v47 v72 : Vec Ideal S1024 .f32)
  (v1 v3 : FVec Ideal S256x1024 .bf16) (v16 v29 : FVec Ideal S256x1024 .f32) (v31 v33 : FVec Ideal S1024x1024 .bf16) (v35 : FVec Ideal S1024 .f32)
  (p : Fin 256) (q : Fin 1024)

theorem pay3_at : k0_pay3 v0 v2 v4 v6 v8 (ix2 p q)
    = Ideal.tanh ((∑ k : Fin 1024, v0 (ix2 p k) * v4 (ix2 k q) + ∑ k : Fin 1024, v2 (ix2 p k) * v6 (ix2 k q)) + v8 (ix1 q)) := by
  unfold k0_pay3 k0_pay1 k0_pay2
  refine (congrArg Ideal.tanh (gate_pre _ _ _ _ _ p q)).trans ?_
  rw [shapeCast_self, shapeCast_self, shapeCast_self]
  rfl
theorem pay4_at : k0_pay4 v0 v2 v4 v6 v8 (ix2 p q)
    = Ideal.exp ((∑ k : Fin 1024, v0 (ix2 p k) * v4 (ix2 k q) + ∑ k : Fin 1024, v2 (ix2 p k) * v6 (ix2 k q)) + v8 (ix1 q)) := by
  unfold k0_pay4 k0_pay1 k0_pay2
  refine (congrArg Ideal.exp (gate_pre _ _ _ _ _ p q)).trans ?_
  rw [shapeCast_self, shapeCast_self, shapeCast_self]
  rfl
theorem pay8_at : k0_pay8 v1 v3 v31 v33 v35 (ix2 p q)
    = Ideal.logistic ((∑ k : Fin 1024, v1 (ix2 p k) * v31 (ix2 k q) + ∑ k : Fin 1024, v3 (ix2 p k) * v33 (ix2 k q)) + v35 (ix1 q)) := by
  unfold k0_pay8
  exact congrArg Ideal.logistic (gate_pre _ _ _ _ _ p q)
theorem pay9_at : k0_pay9 v1 v3 v16 v29 v31 v33 v35 v56 (ix2 p q)
    = k0_pay8 v1 v3 v31 v33 v35 (ix2 p q) * v56 (ix2 p q) + v29 (ix2 p q) * v16 (ix2 p q) := rfl
theorem pay10_at : k0_pay10 v1 v3 v29 v31 v33 v35 v57 (ix2 p q)
    = k0_pay8 v1 v3 v31 v33 v35 (ix2 p q) * v57 (ix2 p q) + v29 (ix2 p q) := rfl
theorem pay11_at : k0_pay11 v1 v3 v16 v29 v31 v33 v35 v43 v45 v47 v56 v57 (ix2 p q)
    = Ideal.logistic ((∑ k : Fin 1024, v1 (ix2 p k) * v43 (ix2 k q) + ∑ k : Fin 1024, v3 (ix2 p k) * v45 (ix2 k q)) + v47 (ix1 q))
      * Ideal.tanh (Ideal.div (k0_pay9 v1 v3 v16 v29 v31 v33 v35 v56 (ix2 p q)) (k0_pay10 v1 v3 v29 v31 v33 v35 v57 (ix2 p q) + eps)) := by
  unfold k0_pay11
  refine (congrArg (· * Ideal.tanh (Ideal.div (k0_pay9 v1 v3 v16 v29 v31 v33 v35 v56 (ix2 p q)) (k0_pay10 v1 v3 v29 v31 v33 v35 v57 (ix2 p q) + eps)))
    (congrArg Ideal.logistic (gate_pre _ _ _ _ _ p q))).trans ?_
  rw [shapeCast_self, shapeCast_self, shapeCast_self]
theorem pay12_at : k0_pay12 v1 v3 v16 v29 v31 v33 v35 v43 v45 v47 v56 v57 v69 v72 (ix2 p q)
    = (∑ k : Fin 1024, k0_pay11 v1 v3 v16 v29 v31 v33 v35 v43 v45 v47 v56 v57 (ix2 p k) * v69 (ix2 k q)) + v72 (ix1 q) := by
  unfold k0_pay12
  refine (proj_at _ _ _ p q).trans ?_
  rw [shapeCast_self]
  rfl
end Payloads

/-! ## The four output blocks at an entry -/

section Blocks
variable (x0 : Vec Ideal S256x1024 .f32) (x1 : Vec Ideal S256x1024 .f32) (x2 : Vec Ideal S256x1024 .f32) (x3 : Vec Ideal S256x1024 .f32) (x4 : Vec Ideal S1024x4096 .bf16) (x5 : Vec Ideal S1024x4096 .bf16) (x6 : Vec Ideal S4096 .f32) (x7 : Vec Ideal S1024x1024 .bf16) (x8 : Vec Ideal S1024 .f32) (p : Fin 256) (q : Fin 1024)

/-- Row `p` of a batch-major block. -/
abbrev brow (x : Vec Ideal S256x1024 .f32) (p : Fin 256) : Fin 1024 → EReal := fun k => x (ix2 p k)

theorem gateZ_at : gateZ x0 x1 x2 x3 x4 x5 x6 x7 x8 (ix2 p q) = gz (brow x0 p) (brow x1 p) x4 x5 x6 q := by
  unfold gateZ
  rw [ldA, ldA, ldW x4 0 (by omega), ldW x5 0 (by omega), ldB x6 0 (by omega)]
  exact (pay3_at _ _ _ _ _ p q).trans rfl
theorem gateI_at : gateI x0 x1 x2 x3 x4 x5 x6 x7 x8 (ix2 p q) = gi (brow x0 p) (brow x1 p) x4 x5 x6 q := by
  unfold gateI
  rw [ldA, ldA, ldW x4 1024 (by omega), ldW x5 1024 (by omega), ldB x6 1024 (by omega)]
  exact (pay4_at _ _ _ _ _ p q).trans rfl
/-- The forget gate, as the body computes it from the casts of the loaded blocks. -/
theorem gateF_at : k0_pay8 (k0_pay1 x0) (k0_pay2 x1) (k0_pay5 (View.ld x4 rW2)) (k0_pay6 (View.ld x5 rW2)) (k0_pay7 (View.ld x6 rB2)) (ix2 p q)
    = gf (brow x0 p) (brow x1 p) x4 x5 x6 q := by
  rw [ldW x4 2048 (by omega), ldW x5 2048 (by omega), ldB x6 2048 (by omega)]
  refine (pay8_at _ _ _ _ _ p q).trans ?_
  unfold k0_pay5 k0_pay6 k0_pay7
  rw [shapeCast_self, shapeCast_self, shapeCast_self]
  rfl

theorem cellC_at : cellC x0 x1 x2 x3 x4 x5 x6 x7 x8 (ix2 p q) = newC (brow x0 p) (brow x1 p) (brow x2 p) x4 x5 x6 q := by
  unfold cellC
  rw [ldA, ldA, ldA]
  refine (pay9_at _ _ _ _ _ _ _ _ p q).trans ?_
  rw [gateF_at, gateI_at, gateZ_at]
  rfl
theorem cellN_at : cellN x0 x1 x2 x3 x4 x5 x6 x7 x8 (ix2 p q) = newN (brow x0 p) (brow x1 p) (brow x3 p) x4 x5 x6 q := by
  unfold cellN
  rw [ldA, ldA, ldA]
  refine (pay10_at _ _ _ _ _ _ _ p q).trans ?_
  rw [gateF_at, gateI_at]
  rfl
theorem cellH_at : cellH x0 x1 x2 x3 x4 x5 x6 x7 x8 (ix2 p q) = newH (brow x0 p) (brow x1 p) (brow x2 p) (brow x3 p) x4 x5 x6 q := by
  have hC := cellC_at x0 x1 x2 x3 x4 x5 x6 x7 x8 p q
  have hN := cellN_at x0 x1 x2 x3 x4 x5 x6 x7 x8 p q
  unfold cellC at hC
  unfold cellN at hN
  unfold cellH
  rw [ldA, ldA, ldA, ldA] at *
  rw [ldW x4 3072 (by omega), ldW x5 3072 (by omega), ldB x6 3072 (by omega)]
  refine (pay11_at _ _ _ _ _ _ _ _ _ _ _ _ p q).trans ?_
  rw [hC, hN]
  rfl
theorem cellY_at : cellY x0 x1 x2 x3 x4 x5 x6 x7 x8 (ix2 p q) = outY (brow x0 p) (brow x1 p) (brow x2 p) (brow x3 p) x4 x5 x6 x7 x8 q := by
  have hH := fun k => cellH_at x0 x1 x2 x3 x4 x5 x6 x7 x8 p k
  unfold cellH at hH
  unfold cellY
  rw [ldA, ldA, ldA, ldA, ldP, ldQ] at *
  refine (pay12_at _ _ _ _ _ _ _ _ _ _ _ _ _ _ p q).trans ?_
  simp only [hH]
  rfl
end Blocks

end Cert.KernelIdeal.CellBlock

end
-- ==== Proof.CellArray.lean ====
/-
  From blocks to arrays.  Grid point t owns rows 256·t … 256·t + 255 of the four batch-major arguments and
  of the four results, and sees the whole of the concatenated weights, the concatenated bias, the output
  projection and its bias.  So what point t writes back to a result is block t of the whole-array cell step,
  the 64 blocks tile each result, and each result array ends at the cell step of every batch row.
-/
import proofs.«147221_j68642167325024_2_alg».proof.Proof.CellBlock

set_option maxRecDepth 16384

noncomputable section

namespace Cert.KernelIdeal.CellArray

open Cert.KernelIdeal Cert.KernelIdeal.Gen Cert.KernelIdeal.Cell Cert.KernelIdeal.CellBlock Cert.CellSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the launch reads -/

/-- The four batch-major arguments as given, -/
abbrev aX (c : Dev nD) : Mat 16384 1024 := m ((c : Thread nD τ).loc main_arg0)
abbrev aH (c : Dev nD) : Mat 16384 1024 := m ((c : Thread nD τ).loc main_arg1)
abbrev aC (c : Dev nD) : Mat 16384 1024 := m ((c : Thread nD τ).loc main_arg2)
abbrev aN (c : Dev nD) : Mat 16384 1024 := m ((c : Thread nD τ).loc main_arg3)
/-- the concatenated weights, recurrent weights and bias and the cast output projection as the host lines left them, -/
abbrev aW (c : Dev nD) : Mat 1024 4096 := V m c main_v4
abbrev aR (c : Dev nD) : Mat 1024 4096 := V m c main_v9
abbrev ab (c : Dev nD) : Vect 4096 := V m c main_v18
abbrev aP (c : Dev nD) : Mat 1024 1024 := V m c main_v19
/-- and the output bias as given. -/
abbrev ad (c : Dev nD) : Vect 1024 := m ((c : Thread nD τ).loc main_arg25)

/-! ## The index maps, decided over the 64 points -/

theorem idx_in0 : ∀ t : Fin cfg0.N, win0_0.index t (0 : Fin 2) = t.val ∧ win0_0.index t (1 : Fin 2) = 0 :=
  (by decide +kernel : ∀ t : Fin grid0.N, _)
theorem idx_in1 : ∀ t : Fin cfg0.N, win0_1.index t (0 : Fin 2) = t.val ∧ win0_1.index t (1 : Fin 2) = 0 :=
  (by decide +kernel : ∀ t : Fin grid0.N, _)
theorem idx_in2 : ∀ t : Fin cfg0.N, win0_2.index t (0 : Fin 2) = t.val ∧ win0_2.index t (1 : Fin 2) = 0 :=
  (by decide +kernel : ∀ t : Fin grid0.N, _)
theorem idx_in3 : ∀ t : Fin cfg0.N, win0_3.index t (0 : Fin 2) = t.val ∧ win0_3.index t (1 : Fin 2) = 0 :=
  (by decide +kernel : ∀ t : Fin grid0.N, _)
theorem idx_in4 : ∀ t : Fin cfg0.N, win0_4.index t (0 : Fin 2) = 0 ∧ win0_4.index t (1 : Fin 2) = 0 :=
  (by decide +kernel : ∀ t : Fin grid0.N, _)
theorem idx_in5 : ∀ t : Fin cfg0.N, win0_5.index t (0 : Fin 2) = 0 ∧ win0_5.index t (1 : Fin 2) = 0 :=
  (by decide +kernel : ∀ t : Fin grid0.N, _)
theorem idx_in7 : ∀ t : Fin cfg0.N, win0_7.index t (0 : Fin 2) = 0 ∧ win0_7.index t (1 : Fin 2) = 0 :=
  (by decide +kernel : ∀ t : Fin grid0.N, _)
theorem idx_in6 : ∀ t : Fin cfg0.N, win0_6.index t (0 : Fin 1) = 0 :=
  (by decide +kernel : ∀ t : Fin grid0.N, _)
theorem idx_in8 : ∀ t : Fin cfg0.N, win0_8.index t (0 : Fin 1) = 0 :=
  (by decide +kernel : ∀ t : Fin grid0.N, _)
theorem idx_out9 : ∀ t : Fin cfg0.N, win0_9.index t (0 : Fin 2) = t.val ∧ win0_9.index t (1 : Fin 2) = 0 :=
  (by decide +kernel : ∀ t : Fin grid0.N, _)
theorem idx_out10 : ∀ t : Fin cfg0.N, win0_10.index t (0 : Fin 2) = t.val ∧ win0_10.index t (1 : Fin 2) = 0 :=
  (by decide +kernel : ∀ t : Fin grid0.N, _)
theorem idx_out11 : ∀ t : Fin cfg0.N, win0_11.index t (0 : Fin 2) = t.val ∧ win0_11.index t (1 : Fin 2) = 0 :=
  (by decide +kernel : ∀ t : Fin grid0.N, _)
theorem idx_out12 : ∀ t : Fin cfg0.N, win0_12.index t (0 : Fin 2) = t.val ∧ win0_12.index t (1 : Fin 2) = 0 :=
  (by decide +kernel : ∀ t : Fin grid0.N, _)

/-! ## Each input block, read off its array -/

theorem row_w0 (c : Dev nD) (t : Fin cfg0.N) (p : Fin 256) :
    brow (iblk m c 0 t) p = rowOf (aX m c) (grow t p) := by
  funext k
  show V m c main_arg0 (((cfg0.win 0).blk t).view.emb (ix2 p k)) = m ((c : Thread nD τ).loc main_arg0) (ix2 (grow t p) k)
  rw [V_main_arg0]
  refine congrArg _ (funext fun a => Fin.ext ?_)
  obtain ⟨e0, e1⟩ := idx_in0 t
  match a with
  | ⟨0, _⟩ => show win0_0.index t (0 : Fin 2) * 256 + 1 * p.val = 256 * t.val + p.val; omega
  | ⟨1, _⟩ => show win0_0.index t (1 : Fin 2) * 1024 + 1 * k.val = k.val; omega
theorem row_w1 (c : Dev nD) (t : Fin cfg0.N) (p : Fin 256) :
    brow (iblk m c 1 t) p = rowOf (aH m c) (grow t p) := by
  funext k
  show V m c main_arg1 (((cfg0.win 1).blk t).view.emb (ix2 p k)) = m ((c : Thread nD τ).loc main_arg1) (ix2 (grow t p) k)
  rw [V_main_arg1]
  refine congrArg _ (funext fun a => Fin.ext ?_)
  obtain ⟨e0, e1⟩ := idx_in1 t
  match a with
  | ⟨0, _⟩ => show win0_1.index t (0 : Fin 2) * 256 + 1 * p.val = 256 * t.val + p.val; omega
  | ⟨1, _⟩ => show win0_1.index t (1 : Fin 2) * 1024 + 1 * k.val = k.val; omega
theorem row_w2 (c : Dev nD) (t : Fin cfg0.N) (p : Fin 256) :
    brow (iblk m c 2 t) p = rowOf (aC m c) (grow t p) := by
  funext k
  show V m c main_arg2 (((cfg0.win 2).blk t).view.emb (ix2 p k)) = m ((c : Thread nD τ).loc main_arg2) (ix2 (grow t p) k)
  rw [V_main_arg2]
  refine congrArg _ (funext fun a => Fin.ext ?_)
  obtain ⟨e0, e1⟩ := idx_in2 t
  match a with
  | ⟨0, _⟩ => show win0_2.index t (0 : Fin 2) * 256 + 1 * p.val = 256 * t.val + p.val; omega
  | ⟨1, _⟩ => show win0_2.index t (1 : Fin 2) * 1024 + 1 * k.val = k.val; omega
theorem row_w3 (c : Dev nD) (t : Fin cfg0.N) (p : Fin 256) :
    brow (iblk m c 3 t) p = rowOf (aN m c) (grow t p) := by
  funext k
  show V m c main_arg3 (((cfg0.win 3).blk t).view.emb (ix2 p k)) = m ((c : Thread nD τ).loc main_arg3) (ix2 (grow t p) k)
  rw [V_main_arg3]
  refine congrArg _ (funext fun a => Fin.ext ?_)
  obtain ⟨e0, e1⟩ := idx_in3 t
  match a with
  | ⟨0, _⟩ => show win0_3.index t (0 : Fin 2) * 256 + 1 * p.val = 256 * t.val + p.val; omega
  | ⟨1, _⟩ => show win0_3.index t (1 : Fin 2) * 1024 + 1 * k.val = k.val; omega
theorem whole_w4 (c : Dev nD) (t : Fin cfg0.N) : iblk m c 4 t = aW m c := by
  funext y
  show V m c main_v4 (((cfg0.win 4).blk t).view.emb y) = V m c main_v4 y
  refine congrArg _ (funext fun a => Fin.ext ?_)
  obtain ⟨e0, e1⟩ := idx_in4 t
  match a with
  | ⟨0, _⟩ => show win0_4.index t (0 : Fin 2) * 1024 + 1 * (y 0).val = (y 0).val; omega
  | ⟨1, _⟩ => show win0_4.index t (1 : Fin 2) * 4096 + 1 * (y 1).val = (y 1).val; omega
theorem whole_w5 (c : Dev nD) (t : Fin cfg0.N) : iblk m c 5 t = aR m c := by
  funext y
  show V m c main_v9 (((cfg0.win 5).blk t).view.emb y) = V m c main_v9 y
  refine congrArg _ (funext fun a => Fin.ext ?_)
  obtain ⟨e0, e1⟩ := idx_in5 t
  match a with
  | ⟨0, _⟩ => show win0_5.index t (0 : Fin 2) * 1024 + 1 * (y 0).val = (y 0).val; omega
  | ⟨1, _⟩ => show win0_5.index t (1 : Fin 2) * 4096 + 1 * (y 1).val = (y 1).val; omega
theorem whole_w7 (c : Dev nD) (t : Fin cfg0.N) : iblk m c 7 t = aP m c := by
  funext y
  show V m c main_v19 (((cfg0.win 7).blk t).view.emb y) = V m c main_v19 y
  refine congrArg _ (funext fun a => Fin.ext ?_)
  obtain ⟨e0, e1⟩ := idx_in7 t
  match a with
  | ⟨0, _⟩ => show win0_7.index t (0 : Fin 2) * 1024 + 1 * (y 0).val = (y 0).val; omega
  | ⟨1, _⟩ => show win0_7.index t (1 : Fin 2) * 1024 + 1 * (y 1).val = (y 1).val; omega
theorem whole_w6 (c : Dev nD) (t : Fin cfg0.N) : iblk m c 6 t = ab m c := by
  funext y
  show V m c main_v18 (((cfg0.win 6).blk t).view.emb y) = V m c main_v18 y
  refine congrArg _ (funext fun a => Fin.ext ?_)
  have e0 := idx_in6 t
  match a with
  | ⟨0, _⟩ => show win0_6.index t (0 : Fin 1) * 4096 + 1 * (y 0).val = (y 0).val; omega
theorem whole_w8 (c : Dev nD) (t : Fin cfg0.N) : iblk m c 8 t = ad m c := by
  funext y
  show V m c main_arg25 (((cfg0.win 8).blk t).view.emb y) = m ((c : Thread nD τ).loc main_arg25) y
  rw [V_main_arg25]
  refine congrArg _ (funext fun a => Fin.ext ?_)
  have e0 := idx_in8 t
  match a with
  | ⟨0, _⟩ => show win0_8.index t (0 : Fin 1) * 1024 + 1 * (y 0).val = (y 0).val; omega

/-- Entry (p, q) of output block `t` is entry (256·t + p, q) of the result. -/
theorem out_emb9 (t : Fin cfg0.N) (p : Fin 256) (q : Fin 1024) :
    ((cfg0.win 9).blk t).view.emb (ix2 p q) = ix2 (grow t p) q := by
  funext a; apply Fin.ext
  obtain ⟨e0, e1⟩ := idx_out9 t
  match a with
  | ⟨0, _⟩ => show win0_9.index t (0 : Fin 2) * 256 + 1 * p.val = 256 * t.val + p.val; omega
  | ⟨1, _⟩ => show win0_9.index t (1 : Fin 2) * 1024 + 1 * q.val = q.val; omega
theorem out_emb10 (t : Fin cfg0.N) (p : Fin 256) (q : Fin 1024) :
    ((cfg0.win 10).blk t).view.emb (ix2 p q) = ix2 (grow t p) q := by
  funext a; apply Fin.ext
  obtain ⟨e0, e1⟩ := idx_out10 t
  match a with
  | ⟨0, _⟩ => show win0_10.index t (0 : Fin 2) * 256 + 1 * p.val = 256 * t.val + p.val; omega
  | ⟨1, _⟩ => show win0_10.index t (1 : Fin 2) * 1024 + 1 * q.val = q.val; omega
theorem out_emb11 (t : Fin cfg0.N) (p : Fin 256) (q : Fin 1024) :
    ((cfg0.win 11).blk t).view.emb (ix2 p q) = ix2 (grow t p) q := by
  funext a; apply Fin.ext
  obtain ⟨e0, e1⟩ := idx_out11 t
  match a with
  | ⟨0, _⟩ => show win0_11.index t (0 : Fin 2) * 256 + 1 * p.val = 256 * t.val + p.val; omega
  | ⟨1, _⟩ => show win0_11.index t (1 : Fin 2) * 1024 + 1 * q.val = q.val; omega
theorem out_emb12 (t : Fin cfg0.N) (p : Fin 256) (q : Fin 1024) :
    ((cfg0.win 12).blk t).view.emb (ix2 p q) = ix2 (grow t p) q := by
  funext a; apply Fin.ext
  obtain ⟨e0, e1⟩ := idx_out12 t
  match a with
  | ⟨0, _⟩ => show win0_12.index t (0 : Fin 2) * 256 + 1 * p.val = 256 * t.val + p.val; omega
  | ⟨1, _⟩ => show win0_12.index t (1 : Fin 2) * 1024 + 1 * q.val = q.val; omega

/-! ## The four results -/

/-! ### Result Y (window 9) -/

/-- What point `t` writes back is block `t` of the whole-array cell step. -/
theorem flushedY_eq (c : Dev nD) (t : Fin cfg0.N) :
    (dats m 0 c).flushed 9 t = ((cfg0.win 9).blk t).view.read (Elt Ideal) (arrY (aX m c) (aH m c) (aC m c) (aN m c) (aW m c) (aR m c) (ab m c) (aP m c) (ad m c)) := by
  show (cfg0.win 9).cut (grid0.coords t) ((dats m 0 c).after 9 t) = _
  rw [after_w9]
  unfold Cert.KernelIdeal.Cell.outY
  rw [View.canon_unit_zero hz2]
  funext j
  obtain ⟨p, q, rfl⟩ : ∃ (p : Fin 256) (q : Fin 1024), j = ix2 p q := ⟨j 0, j 1, eq_ix2 j⟩
  show cellY (iblk m c 0 t) (iblk m c 1 t) (iblk m c 2 t) (iblk m c 3 t) (iblk m c 4 t) (iblk m c 5 t) (iblk m c 6 t) (iblk m c 7 t) (iblk m c 8 t) (ix2 p q) = arrY (aX m c) (aH m c) (aC m c) (aN m c) (aW m c) (aR m c) (ab m c) (aP m c) (ad m c) (((cfg0.win 9).blk t).view.emb (ix2 p q))
  rw [out_emb9 t p q]
  refine (cellY_at (iblk m c 0 t) (iblk m c 1 t) (iblk m c 2 t) (iblk m c 3 t) (iblk m c 4 t) (iblk m c 5 t) (iblk m c 6 t) (iblk m c 7 t) (iblk m c 8 t) p q).trans ?_
  have e0 := row_w0 m c t p
  have e1 := row_w1 m c t p
  have e2 := row_w2 m c t p
  have e3 := row_w3 m c t p
  show Cert.CellSpec.outY _ _ _ _ _ _ _ _ _ q = Cert.CellSpec.outY _ _ _ _ _ _ _ _ _ q
  rw [e0, e1, e2, e3, whole_w4 m c t, whole_w5 m c t, whole_w6 m c t, whole_w7 m c t, whole_w8 m c t]

/-- An entry is in point `t`'s block iff each coordinate is in the block's range. -/
theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v20_0).slice (win0_9.rect t)).set ↔ _
  rw [View.set_slice_whole, Rect.mem_set_unit]
  exact Iff.rfl

/-- Every entry of the array lies in the block of the point that owns its row. -/
theorem coverY (i : S16384x1024.Idx) :
    ∃ t : Fin cfg0.N, (cfg0.win 9).flush t = true ∧ i ∈ ((cfg0.win 9).blk t).view.set := by
  have hi0 : (i 0).val < 16384 := (i 0).isLt
  have hi1 : (i 1).val < 1024 := (i 1).isLt
  have ht : (i 0).val / 256 < 64 := by omega
  refine ⟨⟨(i 0).val / 256, ht⟩, flush0_9 _, ?_⟩
  rw [mem_blk9]
  obtain ⟨e0, e1⟩ := idx_out9 ⟨(i 0).val / 256, ht⟩
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, ht⟩ (1 : Fin 2) * 1024 ≤ (i 1).val ∧ (i 1).val < win0_9.index ⟨(i 0).val / 256, ht⟩ (1 : Fin 2) * 1024 + 1024
    rw [e1]; omega

/-- The array after the run. -/
theorem finalY (c : Dev nD) : (dats m 0 c).arrAt 9 cfg0.N = arrY (aX m c) (aH m c) (aC m c) (aN m c) (aW m c) (aR m c) (ab m c) (aP m c) (ad m c) :=
  (dats m 0 c).arrAt_eq_of_cover 9 (arrY (aX m c) (aH m c) (aC m c) (aN m c) (aW m c) (aR m c) (ab m c) (aP m c) (ad m c)) (fun t _ => flushedY_eq m c t) coverY

/-! ### Result H (window 10) -/

/-- What point `t` writes back is block `t` of the whole-array cell step. -/
theorem flushedH_eq (c : Dev nD) (t : Fin cfg0.N) :
    (dats m 0 c).flushed 10 t = ((cfg0.win 10).blk t).view.read (Elt Ideal) (arrH (aX m c) (aH m c) (aC m c) (aN m c) (aW m c) (aR m c) (ab m c)) := by
  show (cfg0.win 10).cut (grid0.coords t) ((dats m 0 c).after 10 t) = _
  rw [after_w10]
  unfold Cert.KernelIdeal.Cell.outH
  rw [View.canon_unit_zero hz2]
  funext j
  obtain ⟨p, q, rfl⟩ : ∃ (p : Fin 256) (q : Fin 1024), j = ix2 p q := ⟨j 0, j 1, eq_ix2 j⟩
  show cellH (iblk m c 0 t) (iblk m c 1 t) (iblk m c 2 t) (iblk m c 3 t) (iblk m c 4 t) (iblk m c 5 t) (iblk m c 6 t) (iblk m c 7 t) (iblk m c 8 t) (ix2 p q) = arrH (aX m c) (aH m c) (aC m c) (aN m c) (aW m c) (aR m c) (ab m c) (((cfg0.win 10).blk t).view.emb (ix2 p q))
  rw [out_emb10 t p q]
  refine (cellH_at (iblk m c 0 t) (iblk m c 1 t) (iblk m c 2 t) (iblk m c 3 t) (iblk m c 4 t) (iblk m c 5 t) (iblk m c 6 t) (iblk m c 7 t) (iblk m c 8 t) p q).trans ?_
  have e0 := row_w0 m c t p
  have e1 := row_w1 m c t p
  have e2 := row_w2 m c t p
  have e3 := row_w3 m c t p
  show Cert.CellSpec.newH _ _ _ _ _ _ _ q = Cert.CellSpec.newH _ _ _ _ _ _ _ q
  rw [e0, e1, e2, e3, whole_w4 m c t, whole_w5 m c t, whole_w6 m c t]

/-- An entry is in point `t`'s block iff each coordinate is in the block's range. -/
theorem mem_blk10 (t : Fin cfg0.N) (i : S16384x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v20_1).slice (win0_10.rect t)).set ↔ _
  rw [View.set_slice_whole, Rect.mem_set_unit]
  exact Iff.rfl

/-- Every entry of the array lies in the block of the point that owns its row. -/
theorem coverH (i : S16384x1024.Idx) :
    ∃ t : Fin cfg0.N, (cfg0.win 10).flush t = true ∧ i ∈ ((cfg0.win 10).blk t).view.set := by
  have hi0 : (i 0).val < 16384 := (i 0).isLt
  have hi1 : (i 1).val < 1024 := (i 1).isLt
  have ht : (i 0).val / 256 < 64 := by omega
  refine ⟨⟨(i 0).val / 256, ht⟩, flush0_10 _, ?_⟩
  rw [mem_blk10]
  obtain ⟨e0, e1⟩ := idx_out10 ⟨(i 0).val / 256, ht⟩
  intro a
  match a with
  | ⟨0, _⟩ =>
    show win0_10.index ⟨(i 0).val / 256, ht⟩ (0 : Fin 2) * 256 ≤ (i 0).val ∧ (i 0).val < win0_10.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, ht⟩ (1 : Fin 2) * 1024 ≤ (i 1).val ∧ (i 1).val < win0_10.index ⟨(i 0).val / 256, ht⟩ (1 : Fin 2) * 1024 + 1024
    rw [e1]; omega

/-- The array after the run. -/
theorem finalH (c : Dev nD) : (dats m 0 c).arrAt 10 cfg0.N = arrH (aX m c) (aH m c) (aC m c) (aN m c) (aW m c) (aR m c) (ab m c) :=
  (dats m 0 c).arrAt_eq_of_cover 10 (arrH (aX m c) (aH m c) (aC m c) (aN m c) (aW m c) (aR m c) (ab m c)) (fun t _ => flushedH_eq m c t) coverH

/-! ### Result C (window 11) -/

/-- What point `t` writes back is block `t` of the whole-array cell step. -/
theorem flushedC_eq (c : Dev nD) (t : Fin cfg0.N) :
    (dats m 0 c).flushed 11 t = ((cfg0.win 11).blk t).view.read (Elt Ideal) (arrC (aX m c) (aH m c) (aC m c) (aW m c) (aR m c) (ab m c)) := by
  show (cfg0.win 11).cut (grid0.coords t) ((dats m 0 c).after 11 t) = _
  rw [after_w11]
  unfold Cert.KernelIdeal.Cell.outC
  rw [View.canon_unit_zero hz2]
  funext j
  obtain ⟨p, q, rfl⟩ : ∃ (p : Fin 256) (q : Fin 1024), j = ix2 p q := ⟨j 0, j 1, eq_ix2 j⟩
  show cellC (iblk m c 0 t) (iblk m c 1 t) (iblk m c 2 t) (iblk m c 3 t) (iblk m c 4 t) (iblk m c 5 t) (iblk m c 6 t) (iblk m c 7 t) (iblk m c 8 t) (ix2 p q) = arrC (aX m c) (aH m c) (aC m c) (aW m c) (aR m c) (ab m c) (((cfg0.win 11).blk t).view.emb (ix2 p q))
  rw [out_emb11 t p q]
  refine (cellC_at (iblk m c 0 t) (iblk m c 1 t) (iblk m c 2 t) (iblk m c 3 t) (iblk m c 4 t) (iblk m c 5 t) (iblk m c 6 t) (iblk m c 7 t) (iblk m c 8 t) p q).trans ?_
  have e0 := row_w0 m c t p
  have e1 := row_w1 m c t p
  have e2 := row_w2 m c t p
  have e3 := row_w3 m c t p
  show Cert.CellSpec.newC _ _ _ _ _ _ q = Cert.CellSpec.newC _ _ _ _ _ _ q
  rw [e0, e1, e2, whole_w4 m c t, whole_w5 m c t, whole_w6 m c t]

/-- An entry is in point `t`'s block iff each coordinate is in the block's range. -/
theorem mem_blk11 (t : Fin cfg0.N) (i : S16384x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v20_2).slice (win0_11.rect t)).set ↔ _
  rw [View.set_slice_whole, Rect.mem_set_unit]
  exact Iff.rfl

/-- Every entry of the array lies in the block of the point that owns its row. -/
theorem coverC (i : S16384x1024.Idx) :
    ∃ t : Fin cfg0.N, (cfg0.win 11).flush t = true ∧ i ∈ ((cfg0.win 11).blk t).view.set := by
  have hi0 : (i 0).val < 16384 := (i 0).isLt
  have hi1 : (i 1).val < 1024 := (i 1).isLt
  have ht : (i 0).val / 256 < 64 := by omega
  refine ⟨⟨(i 0).val / 256, ht⟩, flush0_11 _, ?_⟩
  rw [mem_blk11]
  obtain ⟨e0, e1⟩ := idx_out11 ⟨(i 0).val / 256, ht⟩
  intro a
  match a with
  | ⟨0, _⟩ =>
    show win0_11.index ⟨(i 0).val / 256, ht⟩ (0 : Fin 2) * 256 ≤ (i 0).val ∧ (i 0).val < win0_11.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_11.index ⟨(i 0).val / 256, ht⟩ (1 : Fin 2) * 1024 ≤ (i 1).val ∧ (i 1).val < win0_11.index ⟨(i 0).val / 256, ht⟩ (1 : Fin 2) * 1024 + 1024
    rw [e1]; omega

/-- The array after the run. -/
theorem finalC (c : Dev nD) : (dats m 0 c).arrAt 11 cfg0.N = arrC (aX m c) (aH m c) (aC m c) (aW m c) (aR m c) (ab m c) :=
  (dats m 0 c).arrAt_eq_of_cover 11 (arrC (aX m c) (aH m c) (aC m c) (aW m c) (aR m c) (ab m c)) (fun t _ => flushedC_eq m c t) coverC

/-! ### Result N (window 12) -/

/-- What point `t` writes back is block `t` of the whole-array cell step. -/
theorem flushedN_eq (c : Dev nD) (t : Fin cfg0.N) :
    (dats m 0 c).flushed 12 t = ((cfg0.win 12).blk t).view.read (Elt Ideal) (arrN (aX m c) (aH m c) (aN m c) (aW m c) (aR m c) (ab m c)) := by
  show (cfg0.win 12).cut (grid0.coords t) ((dats m 0 c).after 12 t) = _
  rw [after_w12]
  unfold Cert.KernelIdeal.Cell.outN
  rw [View.canon_unit_zero hz2]
  funext j
  obtain ⟨p, q, rfl⟩ : ∃ (p : Fin 256) (q : Fin 1024), j = ix2 p q := ⟨j 0, j 1, eq_ix2 j⟩
  show cellN (iblk m c 0 t) (iblk m c 1 t) (iblk m c 2 t) (iblk m c 3 t) (iblk m c 4 t) (iblk m c 5 t) (iblk m c 6 t) (iblk m c 7 t) (iblk m c 8 t) (ix2 p q) = arrN (aX m c) (aH m c) (aN m c) (aW m c) (aR m c) (ab m c) (((cfg0.win 12).blk t).view.emb (ix2 p q))
  rw [out_emb12 t p q]
  refine (cellN_at (iblk m c 0 t) (iblk m c 1 t) (iblk m c 2 t) (iblk m c 3 t) (iblk m c 4 t) (iblk m c 5 t) (iblk m c 6 t) (iblk m c 7 t) (iblk m c 8 t) p q).trans ?_
  have e0 := row_w0 m c t p
  have e1 := row_w1 m c t p
  have e2 := row_w2 m c t p
  have e3 := row_w3 m c t p
  show Cert.CellSpec.newN _ _ _ _ _ _ q = Cert.CellSpec.newN _ _ _ _ _ _ q
  rw [e0, e1, e3, whole_w4 m c t, whole_w5 m c t, whole_w6 m c t]

/-- An entry is in point `t`'s block iff each coordinate is in the block's range. -/
theorem mem_blk12 (t : Fin cfg0.N) (i : S16384x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v20_3).slice (win0_12.rect t)).set ↔ _
  rw [View.set_slice_whole, Rect.mem_set_unit]
  exact Iff.rfl

/-- Every entry of the array lies in the block of the point that owns its row. -/
theorem coverN (i : S16384x1024.Idx) :
    ∃ t : Fin cfg0.N, (cfg0.win 12).flush t = true ∧ i ∈ ((cfg0.win 12).blk t).view.set := by
  have hi0 : (i 0).val < 16384 := (i 0).isLt
  have hi1 : (i 1).val < 1024 := (i 1).isLt
  have ht : (i 0).val / 256 < 64 := by omega
  refine ⟨⟨(i 0).val / 256, ht⟩, flush0_12 _, ?_⟩
  rw [mem_blk12]
  obtain ⟨e0, e1⟩ := idx_out12 ⟨(i 0).val / 256, ht⟩
  intro a
  match a with
  | ⟨0, _⟩ =>
    show win0_12.index ⟨(i 0).val / 256, ht⟩ (0 : Fin 2) * 256 ≤ (i 0).val ∧ (i 0).val < win0_12.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_12.index ⟨(i 0).val / 256, ht⟩ (1 : Fin 2) * 1024 ≤ (i 1).val ∧ (i 1).val < win0_12.index ⟨(i 0).val / 256, ht⟩ (1 : Fin 2) * 1024 + 1024
    rw [e1]; omega

/-- The array after the run. -/
theorem finalN (c : Dev nD) : (dats m 0 c).arrAt 12 cfg0.N = arrN (aX m c) (aH m c) (aN m c) (aW m c) (aR m c) (ab m c) :=
  (dats m 0 c).arrAt_eq_of_cover 12 (arrN (aX m c) (aH m c) (aN m c) (aW m c) (aR m c) (ab m c)) (fun t _ => flushedN_eq m c t) coverN

/-! ## The run, read -/

/-- @main's run with each result array at the whole-array cell step and the arguments unchanged. -/
theorem run : θ_run defs (onTc (τ := τ) (main (F := Ideal))) ⟨m, fun _ => 0, ρ⟩ fun r => ∀ c : Dev nD,
      r.2.mem ((c.tc : Thread nD τ).loc main_v20_0) = arrY (aX m c) (aH m c) (aC m c) (aN m c) (aW m c) (aR m c) (ab m c) (aP m c) (ad m c)
      ∧ r.2.mem ((c.tc : Thread nD τ).loc main_v20_1) = arrH (aX m c) (aH m c) (aC m c) (aN m c) (aW m c) (aR m c) (ab m c)
      ∧ r.2.mem ((c.tc : Thread nD τ).loc main_v20_2) = arrC (aX m c) (aH m c) (aC m c) (aW m c) (aR m c) (ab m c)
      ∧ r.2.mem ((c.tc : Thread nD τ).loc main_v20_3) = arrN (aX m c) (aH m c) (aN m c) (aW m c) (aR m c) (ab m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun r h c => ⟨((h c).1 9).trans (finalY m c), ((h c).1 10).trans (finalH m c),
      ((h c).1 11).trans (finalC m c), ((h c).1 12).trans (finalN m c), kept_of m (dats m) (A_eq m) r h c⟩)
    (run_main m ρ)

end Cert.KernelIdeal.CellArray

end
-- ==== Proof.CellHost.lean ====
/-
  What the host lines before the launch leave: the concatenated input weights are the four input weight
  matrices side by side, the concatenated recurrent weights the four recurrent matrices side by side, the
  concatenated bias the four summed biases end to end, and the output projection the argument itself.  The
  casts to sixteen bits the host applies first are the identity on the extended reals.
-/
import proofs.«147221_j68642167325024_2_alg».proof.Proof.CellRunIdeal
import Idealize.ShloMosaic.Lib.StableHlo.Run
import Idealize.ShloMosaic.PureOps.Ideal

set_option maxRecDepth 16384

noncomputable section

namespace Cert.KernelIdeal.CellHost

open Cert.KernelIdeal Cert.KernelIdeal.Gen Cert.KernelIdeal.Cell
open Idealize.ShloMosaic Idealize.ShloMosaic.TcCoe Idealize.ShloMosaic.StableHlo Idealize.SL.Sem

variable (m : (ℓ : Loc nD τ sig) → Buf (Elt Ideal) ℓ)

theorem hostW (c : Dev nD) : (V m c main_v4 : S1024x4096.Idx → EReal)
    = concatenate S1024x4096 1 [⟨S1024x1024, (m ((c : Thread nD τ).loc main_arg4) : S1024x1024.Idx → EReal)⟩, ⟨S1024x1024, (m ((c : Thread nD τ).loc main_arg9) : S1024x1024.Idx → EReal)⟩,
        ⟨S1024x1024, (m ((c : Thread nD τ).loc main_arg14) : S1024x1024.Idx → EReal)⟩, ⟨S1024x1024, (m ((c : Thread nD τ).loc main_arg19) : S1024x1024.Idx → EReal)⟩]
        concatenates_S1024x1024_S1024x1024_S1024x1024_S1024x1024_S1024x4096_d1 := by
  dsimp only [V]
  simp only [hostOps0, List.flatten_cons, List.flatten_nil, List.append_nil]
  after_results
  rfl

theorem hostR (c : Dev nD) : (V m c main_v9 : S1024x4096.Idx → EReal)
    = concatenate S1024x4096 1 [⟨S1024x1024, (m ((c : Thread nD τ).loc main_arg6) : S1024x1024.Idx → EReal)⟩, ⟨S1024x1024, (m ((c : Thread nD τ).loc main_arg11) : S1024x1024.Idx → EReal)⟩,
        ⟨S1024x1024, (m ((c : Thread nD τ).loc main_arg16) : S1024x1024.Idx → EReal)⟩, ⟨S1024x1024, (m ((c : Thread nD τ).loc main_arg21) : S1024x1024.Idx → EReal)⟩]
        concatenates_S1024x1024_S1024x1024_S1024x1024_S1024x1024_S1024x4096_d1 := by
  dsimp only [V]
  simp only [hostOps0, List.flatten_cons, List.flatten_nil, List.append_nil]
  after_results
  rfl

theorem hostb (c : Dev nD) : (V m c main_v18 : S4096.Idx → EReal)
    = concatenate S4096 0 [
        ⟨S1024, (addf (addf (m ((c : Thread nD τ).loc main_arg5)) (m ((c : Thread nD τ).loc main_arg7))) (m ((c : Thread nD τ).loc main_arg8)) : FVec Ideal S1024 .f32)⟩,
        ⟨S1024, (addf (addf (m ((c : Thread nD τ).loc main_arg10)) (m ((c : Thread nD τ).loc main_arg12))) (m ((c : Thread nD τ).loc main_arg13)) : FVec Ideal S1024 .f32)⟩,
        ⟨S1024, (addf (addf (m ((c : Thread nD τ).loc main_arg15)) (m ((c : Thread nD τ).loc main_arg17))) (m ((c : Thread nD τ).loc main_arg18)) : FVec Ideal S1024 .f32)⟩,
        ⟨S1024, (addf (addf (m ((c : Thread nD τ).loc main_arg20)) (m ((c : Thread nD τ).loc main_arg22))) (m ((c : Thread nD τ).loc main_arg23)) : FVec Ideal S1024 .f32)⟩]
        concatenates_S1024_S1024_S1024_S1024_S4096_d0 := by
  dsimp only [V]
  simp only [hostOps0, List.flatten_cons, List.flatten_nil, List.append_nil]
  after_results
  rfl

theorem hostP (c : Dev nD) : (V m c main_v19 : S1024x1024.Idx → EReal) = m ((c : Thread nD τ).loc main_arg24) := by
  dsimp only [V]
  simp only [hostOps0, List.flatten_cons, List.flatten_nil, List.append_nil]
  after_results
  rfl

end Cert.KernelIdeal.CellHost

end
-- ==== Proof.CellRef.lean ====
/-
  The reference, read row by row: its four results at row r, column q are the cell step of `CellSpec` at
  the rows r of x, h_prev, c_prev, n_prev, with the concatenated weights, recurrent weights and bias the reference
  itself builds.  The reference computes all four gates' pre-activations as one [16384, 4096] array
  (x · Wcat + h · Rcat + bcat) and cuts it into four [16384, 1024] slices; column q of slice g is column
  1024·g + q of that array.  Its sigmoid is written 1 / (1 + exp (−·)), which is the logistic function.
-/
import proofs.«147221_j68642167325024_2_alg».proof.Proof.Gen.ReferenceIdeal.Read
import proofs.«147221_j68642167325024_2_alg».proof.Proof.CellSpec
import Idealize.ShloMosaic.PureOps.IdealRules

noncomputable section

namespace Cert.ReferenceIdeal.CellRef

open Cert.ReferenceIdeal Cert.ReferenceIdeal.Read Cert.CellSpec
open Idealize.ShloMosaic Idealize.ShloMosaic.ValueIdx

variable (x0 x1 x2 x3 : (⟨S16384x1024, .f32⟩ : BufTy).Contents (Elt Ideal))
  (x4 x6 x9 x11 x14 x16 x19 x21 x24 : (⟨S1024x1024, .f32⟩ : BufTy).Contents (Elt Ideal))
  (x5 x7 x8 x10 x12 x13 x15 x17 x18 x20 x22 x23 x25 : (⟨S1024, .f32⟩ : BufTy).Contents (Elt Ideal))

/-- The concatenated input weights, recurrent weights and bias, as the reference builds them. -/
abbrev Wc : Mat 1024 4096 := val_main_v0 (F := Ideal) x4 x9 x14 x19
abbrev Rc : Mat 1024 4096 := val_main_v1 (F := Ideal) x6 x11 x16 x21
abbrev bc : Vect 4096 := val_main_v10 (F := Ideal) x5 x7 x8 x10 x12 x13 x15 x17 x18 x20 x22 x23

/-- Row `r` of a [16384, 1024] array. -/
abbrev row (A : (⟨S16384x1024, .f32⟩ : BufTy).Contents (Elt Ideal)) (r : Fin 16384) : Fin 1024 → EReal := fun k => A (ix2 r k)

/-- The binary float 1.0 is the real number 1. -/
theorem one_f32 : FloatOps.ofBits (F := Ideal) .f32 0x3F800000#32 = (1 : EReal) :=
  IdealRules.sign_bit.ideal_onePat .f32

/-- All four gates' pre-activations at row `r`, column `j` of the wide array. -/
theorem wide_at (r : Fin 16384) (j : Fin 4096) :
    val_main_v16 (F := Ideal) x0 x1 x4 x5 x6 x7 x8 x9 x10 x11 x12 x13 x14 x15 x16 x17 x18 x19 x20 x21 x22 x23 (ix2 r j)
      = (∑ k : Fin 1024, x0 (ix2 r k) * Wc x4 x9 x14 x19 (ix2 k j) + ∑ k : Fin 1024, x1 (ix2 r k) * Rc x6 x11 x16 x21 (ix2 k j))
        + bc x5 x7 x8 x10 x12 x13 x15 x17 x18 x20 x22 x23 (ix1 j) := by
  have el : ∀ k, lidx_main_v11 (ix2 r j) k = ix2 r k := fun k => funext fun a => by
    match a with | ⟨0, _⟩ => rfl | ⟨1, _⟩ => rfl
  have er : ∀ k, ridx_main_v11 (ix2 r j) k = ix2 k j := fun k => funext fun a => by
    match a with | ⟨0, _⟩ => rfl | ⟨1, _⟩ => rfl
  have el' : ∀ k, lidx_main_v12 (ix2 r j) k = ix2 r k := fun k => funext fun a => by
    match a with | ⟨0, _⟩ => rfl | ⟨1, _⟩ => rfl
  have er' : ∀ k, ridx_main_v12 (ix2 r j) k = ix2 k j := fun k => funext fun a => by
    match a with | ⟨0, _⟩ => rfl | ⟨1, _⟩ => rfl
  have eb : idx_main_v14 (idx_main_v15 (ix2 r j)) = ix1 j := funext fun a => by
    match a with | ⟨0, _⟩ => rfl
  rw [val_main_v16_apply, val_main_v13_apply, val_main_v11_apply, val_main_v12_apply, val_main_v15_apply, val_main_v14_apply]
  simp only [el, er, el', er', eb]
  rfl

/-- Slice g's column q is the wide array's column 1024·g + q. -/
theorem slice_col (o : ℕ) (ho : o + 1024 ≤ 4096) (r : Fin 16384) (q : Fin 1024) (i : S16384x4096.Idx)
    (h0 : (i 0).val = r.val) (h1 : (i 1).val = o + q.val) : i = ix2 r (colAt o ho q) := funext fun a => by
  match a with
  | ⟨0, _⟩ => exact Fin.ext h0
  | ⟨1, _⟩ => exact Fin.ext h1

theorem pre0_at (r : Fin 16384) (q : Fin 1024) :
    val_main_v17 (F := Ideal) x0 x1 x4 x5 x6 x7 x8 x9 x10 x11 x12 x13 x14 x15 x16 x17 x18 x19 x20 x21 x22 x23 (ix2 r q) = pre (row x0 r) (row x1 r) (Wc x4 x9 x14 x19) (Rc x6 x11 x16 x21) (bc x5 x7 x8 x10 x12 x13 x15 x17 x18 x20 x22 x23) 0 (by omega) q := by
  rw [val_main_v17_apply, slice_col 0 (by omega) r q (idx_main_v17 (ix2 r q)) rfl (by show q.val = 0 + q.val; omega), wide_at]
  rfl
theorem pre1_at (r : Fin 16384) (q : Fin 1024) :
    val_main_v18 (F := Ideal) x0 x1 x4 x5 x6 x7 x8 x9 x10 x11 x12 x13 x14 x15 x16 x17 x18 x19 x20 x21 x22 x23 (ix2 r q) = pre (row x0 r) (row x1 r) (Wc x4 x9 x14 x19) (Rc x6 x11 x16 x21) (bc x5 x7 x8 x10 x12 x13 x15 x17 x18 x20 x22 x23) 1024 (by omega) q := by
  rw [val_main_v18_apply, slice_col 1024 (by omega) r q (idx_main_v18 (ix2 r q)) rfl rfl, wide_at]
  rfl
theorem pre2_at (r : Fin 16384) (q : Fin 1024) :
    val_main_v19 (F := Ideal) x0 x1 x4 x5 x6 x7 x8 x9 x10 x11 x12 x13 x14 x15 x16 x17 x18 x19 x20 x21 x22 x23 (ix2 r q) = pre (row x0 r) (row x1 r) (Wc x4 x9 x14 x19) (Rc x6 x11 x16 x21) (bc x5 x7 x8 x10 x12 x13 x15 x17 x18 x20 x22 x23) 2048 (by omega) q := by
  rw [val_main_v19_apply, slice_col 2048 (by omega) r q (idx_main_v19 (ix2 r q)) rfl rfl, wide_at]
  rfl
theorem pre3_at (r : Fin 16384) (q : Fin 1024) :
    val_main_v20 (F := Ideal) x0 x1 x4 x5 x6 x7 x8 x9 x10 x11 x12 x13 x14 x15 x16 x17 x18 x19 x20 x21 x22 x23 (ix2 r q) = pre (row x0 r) (row x1 r) (Wc x4 x9 x14 x19) (Rc x6 x11 x16 x21) (bc x5 x7 x8 x10 x12 x13 x15 x17 x18 x20 x22 x23) 3072 (by omega) q := by
  rw [val_main_v20_apply, slice_col 3072 (by omega) r q (idx_main_v20 (ix2 r q)) rfl rfl, wide_at]
  rfl

/-- The four gates. -/
theorem gz_at (r : Fin 16384) (q : Fin 1024) :
    val_main_v21 (F := Ideal) x0 x1 x4 x5 x6 x7 x8 x9 x10 x11 x12 x13 x14 x15 x16 x17 x18 x19 x20 x21 x22 x23 (ix2 r q) = gz (row x0 r) (row x1 r) (Wc x4 x9 x14 x19) (Rc x6 x11 x16 x21) (bc x5 x7 x8 x10 x12 x13 x15 x17 x18 x20 x22 x23) q := by
  rw [val_main_v21_apply, pre0_at]; rfl
theorem gi_at (r : Fin 16384) (q : Fin 1024) :
    val_main_v22 (F := Ideal) x0 x1 x4 x5 x6 x7 x8 x9 x10 x11 x12 x13 x14 x15 x16 x17 x18 x19 x20 x21 x22 x23 (ix2 r q) = gi (row x0 r) (row x1 r) (Wc x4 x9 x14 x19) (Rc x6 x11 x16 x21) (bc x5 x7 x8 x10 x12 x13 x15 x17 x18 x20 x22 x23) q := by
  rw [val_main_v22_apply, pre1_at]; rfl
theorem gf_at (r : Fin 16384) (q : Fin 1024) :
    val_main_v28 (F := Ideal) x0 x1 x4 x5 x6 x7 x8 x9 x10 x11 x12 x13 x14 x15 x16 x17 x18 x19 x20 x21 x22 x23 (ix2 r q) = gf (row x0 r) (row x1 r) (Wc x4 x9 x14 x19) (Rc x6 x11 x16 x21) (bc x5 x7 x8 x10 x12 x13 x15 x17 x18 x20 x22 x23) q := by
  rw [val_main_v28_apply, val_main_v27_apply, val_main_cst_0_apply, val_main_v26_apply, val_main_v25_apply, val_main_cst_apply,
    val_main_v24_apply, val_main_v23_apply, pre2_at, one_f32]
  rfl
theorem go_at (r : Fin 16384) (q : Fin 1024) :
    val_main_v34 (F := Ideal) x0 x1 x4 x5 x6 x7 x8 x9 x10 x11 x12 x13 x14 x15 x16 x17 x18 x19 x20 x21 x22 x23 (ix2 r q) = go (row x0 r) (row x1 r) (Wc x4 x9 x14 x19) (Rc x6 x11 x16 x21) (bc x5 x7 x8 x10 x12 x13 x15 x17 x18 x20 x22 x23) q := by
  rw [val_main_v34_apply, val_main_v33_apply, val_main_cst_2_apply, val_main_v32_apply, val_main_v31_apply, val_main_cst_1_apply,
    val_main_v30_apply, val_main_v29_apply, pre3_at, one_f32]
  rfl

/-- The new cell state, normaliser and hidden state. -/
theorem newC_at (r : Fin 16384) (q : Fin 1024) :
    val_main_v37 (F := Ideal) x0 x1 x2 x4 x5 x6 x7 x8 x9 x10 x11 x12 x13 x14 x15 x16 x17 x18 x19 x20 x21 x22 x23 (ix2 r q) = newC (row x0 r) (row x1 r) (row x2 r) (Wc x4 x9 x14 x19) (Rc x6 x11 x16 x21) (bc x5 x7 x8 x10 x12 x13 x15 x17 x18 x20 x22 x23) q := by
  rw [val_main_v37_apply, val_main_v35_apply, val_main_v36_apply, gf_at, gi_at, gz_at]
  rfl
theorem newN_at (r : Fin 16384) (q : Fin 1024) :
    val_main_v39 (F := Ideal) x0 x1 x3 x4 x5 x6 x7 x8 x9 x10 x11 x12 x13 x14 x15 x16 x17 x18 x19 x20 x21 x22 x23 (ix2 r q) = newN (row x0 r) (row x1 r) (row x3 r) (Wc x4 x9 x14 x19) (Rc x6 x11 x16 x21) (bc x5 x7 x8 x10 x12 x13 x15 x17 x18 x20 x22 x23) q := by
  rw [val_main_v39_apply, val_main_v38_apply, gf_at, gi_at]
  rfl
theorem newH_at (r : Fin 16384) (q : Fin 1024) :
    val_main_v44 (F := Ideal) x0 x1 x2 x3 x4 x5 x6 x7 x8 x9 x10 x11 x12 x13 x14 x15 x16 x17 x18 x19 x20 x21 x22 x23 (ix2 r q) = newH (row x0 r) (row x1 r) (row x2 r) (row x3 r) (Wc x4 x9 x14 x19) (Rc x6 x11 x16 x21) (bc x5 x7 x8 x10 x12 x13 x15 x17 x18 x20 x22 x23) q := by
  rw [val_main_v44_apply, val_main_v43_apply, val_main_v42_apply, val_main_v41_apply, val_main_v40_apply, val_main_cst_3_apply,
    go_at, newC_at, newN_at]
  rfl
/-- The output. -/
theorem outY_at (r : Fin 16384) (q : Fin 1024) :
    val_main_v48 (F := Ideal) x0 x1 x2 x3 x4 x5 x6 x7 x8 x9 x10 x11 x12 x13 x14 x15 x16 x17 x18 x19 x20 x21 x22 x23 x24 x25 (ix2 r q) = outY (row x0 r) (row x1 r) (row x2 r) (row x3 r) (Wc x4 x9 x14 x19) (Rc x6 x11 x16 x21) (bc x5 x7 x8 x10 x12 x13 x15 x17 x18 x20 x22 x23) x24 x25 q := by
  have el : ∀ k, lidx_main_v45 (ix2 r q) k = ix2 r k := fun k => funext fun a => by
    match a with | ⟨0, _⟩ => rfl | ⟨1, _⟩ => rfl
  have er : ∀ k, ridx_main_v45 (ix2 r q) k = ix2 k q := fun k => funext fun a => by
    match a with | ⟨0, _⟩ => rfl | ⟨1, _⟩ => rfl
  have eb : idx_main_v46 (idx_main_v47 (ix2 r q)) = ix1 q := funext fun a => by
    match a with | ⟨0, _⟩ => rfl
  rw [val_main_v48_apply, val_main_v45_apply, val_main_v47_apply, val_main_v46_apply]
  simp only [el, er, eb, newH_at]
  rfl

/-! ## The four results as whole arrays -/

theorem refC : val_main_v37 (F := Ideal) x0 x1 x2 x4 x5 x6 x7 x8 x9 x10 x11 x12 x13 x14 x15 x16 x17 x18 x19 x20 x21 x22 x23 = arrC x0 x1 x2 (Wc x4 x9 x14 x19) (Rc x6 x11 x16 x21) (bc x5 x7 x8 x10 x12 x13 x15 x17 x18 x20 x22 x23) := by
  funext i
  obtain ⟨r, q, rfl⟩ : ∃ (r : Fin 16384) (q : Fin 1024), i = ix2 r q := ⟨i 0, i 1, eq_ix2 i⟩
  exact newC_at x0 x1 x2 x4 x6 x9 x11 x14 x16 x19 x21 x5 x7 x8 x10 x12 x13 x15 x17 x18 x20 x22 x23 r q
theorem refN : val_main_v39 (F := Ideal) x0 x1 x3 x4 x5 x6 x7 x8 x9 x10 x11 x12 x13 x14 x15 x16 x17 x18 x19 x20 x21 x22 x23 = arrN x0 x1 x3 (Wc x4 x9 x14 x19) (Rc x6 x11 x16 x21) (bc x5 x7 x8 x10 x12 x13 x15 x17 x18 x20 x22 x23) := by
  funext i
  obtain ⟨r, q, rfl⟩ : ∃ (r : Fin 16384) (q : Fin 1024), i = ix2 r q := ⟨i 0, i 1, eq_ix2 i⟩
  exact newN_at x0 x1 x3 x4 x6 x9 x11 x14 x16 x19 x21 x5 x7 x8 x10 x12 x13 x15 x17 x18 x20 x22 x23 r q
theorem refH : val_main_v44 (F := Ideal) x0 x1 x2 x3 x4 x5 x6 x7 x8 x9 x10 x11 x12 x13 x14 x15 x16 x17 x18 x19 x20 x21 x22 x23 = arrH x0 x1 x2 x3 (Wc x4 x9 x14 x19) (Rc x6 x11 x16 x21) (bc x5 x7 x8 x10 x12 x13 x15 x17 x18 x20 x22 x23) := by
  funext i
  obtain ⟨r, q, rfl⟩ : ∃ (r : Fin 16384) (q : Fin 1024), i = ix2 r q := ⟨i 0, i 1, eq_ix2 i⟩
  exact newH_at x0 x1 x2 x3 x4 x6 x9 x11 x14 x16 x19 x21 x5 x7 x8 x10 x12 x13 x15 x17 x18 x20 x22 x23 r q
theorem refY : val_main_v48 (F := Ideal) x0 x1 x2 x3 x4 x5 x6 x7 x8 x9 x10 x11 x12 x13 x14 x15 x16 x17 x18 x19 x20 x21 x22 x23 x24 x25 = arrY x0 x1 x2 x3 (Wc x4 x9 x14 x19) (Rc x6 x11 x16 x21) (bc x5 x7 x8 x10 x12 x13 x15 x17 x18 x20 x22 x23) x24 x25 := by
  funext i
  obtain ⟨r, q, rfl⟩ : ∃ (r : Fin 16384) (q : Fin 1024), i = ix2 r q := ⟨i 0, i 1, eq_ix2 i⟩
  exact outY_at x0 x1 x2 x3 x4 x6 x9 x11 x14 x16 x19 x21 x24 x5 x7 x8 x10 x12 x13 x15 x17 x18 x20 x22 x23 x25 r q

/-! ## The run's results, as the cell step of the memory's argument arrays -/

section Run
open Idealize.SL.Sem
variable (m : (ℓ : Loc nD τ sig) → Buf (Elt Ideal) ℓ) (c : Dev nD)

theorem resY : Cert.ReferenceIdeal.Value.res_main_v48 m c
    = arrY (m ((c.tc : Thread nD τ).loc main_arg0)) (m ((c.tc : Thread nD τ).loc main_arg1)) (m ((c.tc : Thread nD τ).loc main_arg2)) (m ((c.tc : Thread nD τ).loc main_arg3)) (Wc (m ((c.tc : Thread nD τ).loc main_arg4)) (m ((c.tc : Thread nD τ).loc main_arg9)) (m ((c.tc : Thread nD τ).loc main_arg14)) (m ((c.tc : Thread nD τ).loc main_arg19))) (Rc (m ((c.tc : Thread nD τ).loc main_arg6)) (m ((c.tc : Thread nD τ).loc main_arg11)) (m ((c.tc : Thread nD τ).loc main_arg16)) (m ((c.tc : Thread nD τ).loc main_arg21))) (bc (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23))) (m ((c.tc : Thread nD τ).loc main_arg24)) (m ((c.tc : Thread nD τ).loc main_arg25)) :=
  (val_main_v48_eq m c).trans (refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg9)) (m ((c.tc : Thread nD τ).loc main_arg11)) (m ((c.tc : Thread nD τ).loc main_arg14)) (m ((c.tc : Thread nD τ).loc main_arg16)) (m ((c.tc : Thread nD τ).loc main_arg19)) (m ((c.tc : Thread nD τ).loc main_arg21)) (m ((c.tc : Thread nD τ).loc main_arg24)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23)) (m ((c.tc : Thread nD τ).loc main_arg25)))
theorem resH : Cert.ReferenceIdeal.Value.res_main_v44 m c
    = arrH (m ((c.tc : Thread nD τ).loc main_arg0)) (m ((c.tc : Thread nD τ).loc main_arg1)) (m ((c.tc : Thread nD τ).loc main_arg2)) (m ((c.tc : Thread nD τ).loc main_arg3)) (Wc (m ((c.tc : Thread nD τ).loc main_arg4)) (m ((c.tc : Thread nD τ).loc main_arg9)) (m ((c.tc : Thread nD τ).loc main_arg14)) (m ((c.tc : Thread nD τ).loc main_arg19))) (Rc (m ((c.tc : Thread nD τ).loc main_arg6)) (m ((c.tc : Thread nD τ).loc main_arg11)) (m ((c.tc : Thread nD τ).loc main_arg16)) (m ((c.tc : Thread nD τ).loc main_arg21))) (bc (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23))) :=
  (val_main_v44_eq m c).trans (refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg9)) (m ((c.tc : Thread nD τ).loc main_arg11)) (m ((c.tc : Thread nD τ).loc main_arg14)) (m ((c.tc : Thread nD τ).loc main_arg16)) (m ((c.tc : Thread nD τ).loc main_arg19)) (m ((c.tc : Thread nD τ).loc main_arg21)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23)))
theorem resC : Cert.ReferenceIdeal.Value.res_main_v37 m c
    = arrC (m ((c.tc : Thread nD τ).loc main_arg0)) (m ((c.tc : Thread nD τ).loc main_arg1)) (m ((c.tc : Thread nD τ).loc main_arg2)) (Wc (m ((c.tc : Thread nD τ).loc main_arg4)) (m ((c.tc : Thread nD τ).loc main_arg9)) (m ((c.tc : Thread nD τ).loc main_arg14)) (m ((c.tc : Thread nD τ).loc main_arg19))) (Rc (m ((c.tc : Thread nD τ).loc main_arg6)) (m ((c.tc : Thread nD τ).loc main_arg11)) (m ((c.tc : Thread nD τ).loc main_arg16)) (m ((c.tc : Thread nD τ).loc main_arg21))) (bc (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23))) :=
  (val_main_v37_eq m c).trans (refC (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg9)) (m ((c.tc : Thread nD τ).loc main_arg11)) (m ((c.tc : Thread nD τ).loc main_arg14)) (m ((c.tc : Thread nD τ).loc main_arg16)) (m ((c.tc : Thread nD τ).loc main_arg19)) (m ((c.tc : Thread nD τ).loc main_arg21)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23)))
theorem resN : val_main_v39 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
    = arrN (m ((c.tc : Thread nD τ).loc main_arg0)) (m ((c.tc : Thread nD τ).loc main_arg1)) (m ((c.tc : Thread nD τ).loc main_arg3)) (Wc (m ((c.tc : Thread nD τ).loc main_arg4)) (m ((c.tc : Thread nD τ).loc main_arg9)) (m ((c.tc : Thread nD τ).loc main_arg14)) (m ((c.tc : Thread nD τ).loc main_arg19))) (Rc (m ((c.tc : Thread nD τ).loc main_arg6)) (m ((c.tc : Thread nD τ).loc main_arg11)) (m ((c.tc : Thread nD τ).loc main_arg16)) (m ((c.tc : Thread nD τ).loc main_arg21))) (bc (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23))) :=
  refN (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg9)) (m ((c.tc : Thread nD τ).loc main_arg11)) (m ((c.tc : Thread nD τ).loc main_arg14)) (m ((c.tc : Thread nD τ).loc main_arg16)) (m ((c.tc : Thread nD τ).loc main_arg19)) (m ((c.tc : Thread nD τ).loc main_arg21)) (m ((c.tc : Thread nD τ).loc main_arg5)) (m ((c.tc : Thread nD τ).loc main_arg7)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg22)) (m ((c.tc : Thread nD τ).loc main_arg23))
end Run

end Cert.ReferenceIdeal.CellRef

end
-- ==== Proof.lean ====
/-
  The certificate of the fused sLSTM cell kernel against its jnp reference.
  Both programs compute, for every batch row, the cell step of `Proof/CellSpec.lean`: the four gates'
  pre-activations x · W_g + h · R_g + b_g (g = z, i, f, o; the kernel one gate at a time from the columns
  of the concatenated weights, the reference as one wide product it then slices), z = tanh, i = exp,
  f and o the logistic function (the reference spells it 1 / (1 + exp (−·))), C = f · c + i · z,
  n' = f · n + i, h' = o · tanh (C / (n' + ε)), y = h' · Wy + by.  On the extended reals the kernel's casts
  to sixteen bits are the identity, its matrix products into the zero accumulator and the reference's
  products are the same sums, and every other operation is the same function on both sides, so the two
  programs' results are equal with no use of the inputs' finiteness.
  The frames: the kernel's launch runs to the end and writes only its four results and its staging
  buffers (`Proof/CellRun.lean` at the word level, `Proof/CellRunIdeal.lean` at the extended reals); the
  reference is straight-line host code.  Nothing was rewritten by the idealization, so `preserves` is trivial.
-/
import proofs.«147221_j68642167325024_2_alg».proof.Defs
import proofs.«147221_j68642167325024_2_alg».proof.Proof.Gen.Kernel
import proofs.«147221_j68642167325024_2_alg».proof.Proof.Gen.KernelIdeal
import proofs.«147221_j68642167325024_2_alg».proof.Proof.Gen.ReferenceIdeal
import proofs.«147221_j68642167325024_2_alg».proof.Proof.Gen.Pre_finite_inputs
import proofs.«147221_j68642167325024_2_alg».proof.Proof.Gen.ReferenceIdeal.Run
import proofs.«147221_j68642167325024_2_alg».proof.Proof.Gen.ReferenceIdeal.Read
import proofs.«147221_j68642167325024_2_alg».proof.Proof.CellRun
import proofs.«147221_j68642167325024_2_alg».proof.Proof.CellArray
import proofs.«147221_j68642167325024_2_alg».proof.Proof.CellHost
import proofs.«147221_j68642167325024_2_alg».proof.Proof.CellRef
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Cell.frame m ρ
theorem frame_ki : Cert.frame_KernelIdeal := fun m ρ _ => Cert.KernelIdeal.Cell.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

set_option maxHeartbeats 1000000 in
/-- Both programs end with the whole-array cell step of the arguments. -/
theorem algebraic : Cert.algebraic_KernelIdeal_ReferenceIdeal := by
  intro m ρ m' ρ' _ hagree
  refine ⟨_, _, _, _, Cert.KernelIdeal.CellArray.run m ρ, ?_⟩
  refine (θ_run Cert.ReferenceIdeal.defs _ _).mono (fun r h c => ?_) (Cert.ReferenceIdeal.Value.run (F := Ideal) m' ρ')
  obtain ⟨h0, h1, h2, h3, hk⟩ := h c
  obtain ⟨g0, g1, g2, g3, g4, g5, g6, g7, g8, g9, g10, g11, g12, g13, g14, g15, g16, g17, g18, g19, g20, g21, g22, g23, g24, g25⟩ := hagree c
  -- the concatenated weights and bias are the same arrays on both sides
  have eW : Cert.ReferenceIdeal.CellRef.Wc (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg19)) = Cert.KernelIdeal.CellArray.aW m c := by
    rw [g4, g9, g14, g19]; exact (Cert.KernelIdeal.CellHost.hostW m c).symm
  have eR : Cert.ReferenceIdeal.CellRef.Rc (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg21)) = Cert.KernelIdeal.CellArray.aR m c := by
    rw [g6, g11, g16, g21]; exact (Cert.KernelIdeal.CellHost.hostR m c).symm
  have eb : Cert.ReferenceIdeal.CellRef.bc (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = Cert.KernelIdeal.CellArray.ab m c := by
    rw [g5, g7, g8, g10, g12, g13, g15, g17, g18, g20, g22, g23]; exact (Cert.KernelIdeal.CellHost.hostb m c).symm
  have eP : (m' ((c.tc : Thread Cert.ReferenceIdeal.nD Cert.ReferenceIdeal.τ).loc Cert.ReferenceIdeal.main_arg24)) = Cert.KernelIdeal.CellArray.aP m c := g24.trans (Cert.KernelIdeal.CellHost.hostP m c).symm
  exact ⟨h0.trans ((Cert.ReferenceIdeal.CellRef.resY m' c).trans (Cert.CellSpec.arrY_congr g0 g1 g2 g3 eW eR eb eP g25)),
    h1.trans ((Cert.ReferenceIdeal.CellRef.resH m' c).trans (Cert.CellSpec.arrH_congr g0 g1 g2 g3 eW eR eb)),
    h2.trans ((Cert.ReferenceIdeal.CellRef.resC m' c).trans (Cert.CellSpec.arrC_congr g0 g1 g2 eW eR eb)),
    h3.trans ((Cert.ReferenceIdeal.CellRef.resN m' c).trans (Cert.CellSpec.arrN_congr g0 g1 g3 eW eR eb)), hk⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
